-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S1200000 32) (main_arg2 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S4000x64 : Shape := ⟨2, ![4000, 64]⟩
abbrev S4000x1 : Shape := ⟨2, ![4000, 1]⟩
abbrev S1200000x64 : Shape := ⟨2, ![1200000, 64]⟩

abbrev nBuf : Space → Nat
  | .hbm => 67
  | .vmem => 50
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S_, .f32⟩
  | .hbm, ⟨4, _⟩ => ⟨S1200000, .f32⟩
  | .hbm, ⟨5, _⟩ => ⟨S_, .f32⟩
  | .hbm, ⟨6, _⟩ => ⟨S100000, .f32⟩
  | .hbm, ⟨7, _⟩ => ⟨S1200000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .f32⟩
  | .hbm, ⟨28, _⟩ => ⟨S_, .f32⟩
  | .hbm, ⟨29, _⟩ => ⟨S100000x64, .f32⟩
  | .hbm, ⟨30, _⟩ => ⟨S1200000x1, .i32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S_, .f32⟩
  | .hbm, ⟨45, _⟩ => ⟨S100000x64, .f32⟩
  | .hbm, ⟨46, _⟩ => ⟨S1200000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S_, .f32⟩
  | .hbm, ⟨61, _⟩ => ⟨S100000x64, .f32⟩
  | .hbm, ⟨62, _⟩ => ⟨S1200000x1, .i32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x1, .f32⟩
  | .local _ .vmem, ⟨13, _⟩ => ⟨S4000x1, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x1, .f32⟩
  | .local _ .vmem, ⟨41, _⟩ => ⟨S4000x1, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_v41_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc3_sem6_0 : DmaSem sig := 48
abbrev cc3_sem6_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S4000x64_S4000x64 : S4000x64.ShapeCasts S4000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S100000x64.size a
  hwx3_6 : ∀ i : grid3.Coords, EltTy.bits .f32 = 32 ∨ (Rect.block (s := S100000x64) S4000x64.size (cc3_transform_6 i) (hinb3_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S4000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S4000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_2) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19_1) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_0) S4000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30_1) S4000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v30_2) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30_0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30_1) S4000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v41_0) S4000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v41_1) S4000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v41_2) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S_, .f32⟩
  | .hbm, ⟨4, _⟩ => ⟨S1200000, .f32⟩
  | .hbm, ⟨5, _⟩ => ⟨S_, .f32⟩
  | .hbm, ⟨6, _⟩ => ⟨S100000, .f32⟩
  | .hbm, ⟨7, _⟩ => ⟨S1200000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S_, .f32⟩
  | .hbm, ⟨32, _⟩ => ⟨S100000x64, .f32⟩
  | .hbm, ⟨33, _⟩ => ⟨S1200000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1200000, .i32⟩
  | .hbm, ⟨68, _⟩ => ⟨S1200000, .i1⟩
  | .hbm, ⟨69, _⟩ => ⟨S_, .i32⟩
  | .hbm, ⟨70, _⟩ => ⟨S1200000, .i32⟩
  | .hbm, ⟨71, _⟩ => ⟨S1200000, .i32⟩
  | .hbm, ⟨72, _⟩ => ⟨S1200000, .i32⟩
  | .hbm, ⟨73, _⟩ => ⟨S1200000x1, .i32⟩
  | .hbm, ⟨74, _⟩ => ⟨S1200000x64, .f32⟩
  | .hbm, ⟨75, _⟩ => ⟨S_, .f32⟩
  | .hbm, ⟨76, _⟩ => ⟨S100000x64, .f32⟩
  | .hbm, ⟨77, _⟩ => ⟨S1200000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The idealized kernel's run with its result array named. The program is four tiled regions among stretches of host
  operations; its buffers' contents at every boundary between them are a fold from the launch memory, and the last
  boundary's contents are what every execution ends with. Read at the result's buffer, that fold is the value the
  certificate is about; the three argument arrays end as launched.
-/
import proofs.«157465_j26542897889791_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the arguments as launched. -/
theorem run_result : θ_run defs (onTc (τ := τ) (main (F := F))) ⟨m, fun _ => 0, ρ⟩ (fun r => ∀ c : Dev nD,
      r.2.mem ((c.tc : Thread nD τ).loc main_v41_1) = W10 m ρ c (Proc.devRef .tc main_v41_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v41_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩)

end Cert.KernelIdeal.RunValue

end
-- ==== Proof.PolySpec.lean ====
/-
  What both programs compute, as one function of the node features (100000 × 64), the edges' source nodes and the
  edges' target nodes (1200000 each): three steps of a polynomial in the degree-normalised graph Laplacian,

      d      = max(deg, 1)^(−1/2),  deg[v] = the number of edges whose target is v
      f₀     = feat,        h₀ = 1 · feat
      fₖ     = fₖ₋₁ − agg(fₖ₋₁ · d) · d,     agg(x)[v] = Σ over edges e with target v of x[source e]
      hₖ     = hₖ₋₁ + θₖ · fₖ               (θ₁, θ₂, θ₃ the f32 words of −0.8, 0.4, −0.1)

  and the result is h₃. The degree count, the source lookup (with its wrap of negative indices) and the sum over
  incoming edges are host operations that both programs apply in the same way; they are kept here exactly as the
  programs spell them and never opened. The records and side conditions those operations take (`HostDims`) are a
  parameter: each program supplies its own, and any two are equal.
-/
import Idealize.ShloMosaic.PureOps

noncomputable section

namespace Cert.PolySpec

open Idealize.ShloMosaic

abbrev SNF : Shape := ⟨2, ![100000, 64]⟩
abbrev SE : Shape := ⟨1, ![1200000]⟩
abbrev S0 : Shape := ⟨0, ![]⟩
abbrev SN : Shape := ⟨1, ![100000]⟩
abbrev SE1 : Shape := ⟨2, ![1200000, 1]⟩
abbrev SN1 : Shape := ⟨2, ![100000, 1]⟩
abbrev SEF : Shape := ⟨2, ![1200000, 64]⟩

/-- The shape relations and dimension records the shared host operations take. -/
structure HostDims where
  bE : S0.BroadcastsInDim SE (![] : Fin 0 → Fin SE.rank)
  bN : S0.BroadcastsInDim SN (![] : Fin 0 → Fin SN.rank)
  bE1 : SE.BroadcastsInDim SE1 (![0] : Fin 1 → Fin SE1.rank)
  bN1 : SN.BroadcastsInDim SN1 (![0] : Fin 1 → Fin SN1.rank)
  bNF : S0.BroadcastsInDim SNF (![] : Fin 0 → Fin SNF.rank)
  bN1NF : SN1.BroadcastsInDim SNF (![0, 1] : Fin 2 → Fin SNF.rank)
  degDims : ScatterDims SN SE1 SE
  rowGather : GatherDims SNF SE1 SEF
  rowScatter : ScatterDims SNF SE1 SEF

variable {F : FTy → Type} [FloatOps F] (H : HostDims)

/-- max(deg, 1)^(−1/2) as a column, deg the count of edges by target node. -/
def invSqrtDeg (dst : IVec SE 32) : FVec F SN1 .f32 :=
  broadcastInDim SN1 ![0] H.bN1
    (Host.powf
      (maximumf (broadcastInDim SN ![] H.bN (id (constant S0 .f32 0x3F800000#32)))
        (Host.scatterAdd H.degDims (broadcastInDim SN ![] H.bN (constant S0 .f32 0x00000000#32))
          (broadcastInDim SE1 ![0] H.bE1 dst) (broadcastInDim SE ![] H.bE (constant S0 .f32 0x3F800000#32))))
      (broadcastInDim SN ![] H.bN (constant S0 .f32 0xBF000000#32)))

/-- The edges' source nodes as gather indices: a negative index wrapped by the node count. -/
def edgeIdx (src : IVec SE 32) : IVec SE1 32 :=
  broadcastInDim SE1 ![0] H.bE1
    (select (cmpi .slt src (broadcastInDim SE ![] H.bE (constantI S0 32 0#32)))
      (addi src (broadcastInDim SE ![] H.bE (constantI S0 32 100000#32))) src)

/-- agg(x): every node's sum, over its incoming edges, of the source node's row of x. -/
def aggregate (x : FVec F SNF .f32) (src dst : IVec SE 32) : FVec F SNF .f32 :=
  Host.scatterAdd H.rowScatter (broadcastInDim SNF ![] H.bNF (constant S0 .f32 0x00000000#32))
    (broadcastInDim SE1 ![0] H.bE1 dst) (Host.gather H.rowGather x (edgeIdx H src))

/-- The rank-0 constant of an f32 word stretched to 100000 × 64. -/
def coeff (w : BitVec 32) : FVec F SNF .f32 := broadcastInDim SNF ![] H.bNF (constant S0 .f32 w)

/-- The column d stretched to 100000 × 64. -/
def stretch (d : FVec F SN1 .f32) : FVec F SNF .f32 := broadcastInDim SNF ![0, 1] H.bN1NF d

/-- x · d, row by row. -/
def scaled (x : FVec F SNF .f32) (d : FVec F SN1 .f32) : FVec F SNF .f32 := mulf x (stretch H d)

/-- f − a · d, row by row. -/
def featStep (f a : FVec F SNF .f32) (d : FVec F SN1 .f32) : FVec F SNF .f32 := subf f (mulf a (stretch H d))

/-- h + θ · x. -/
def hStep (w : BitVec 32) (h x : FVec F SNF .f32) : FVec F SNF .f32 := addf h (mulf (coeff H w) x)

/-- 1 · feat. -/
def hInit (feat : FVec F SNF .f32) : FVec F SNF .f32 := mulf (coeff H 0x3F800000#32) feat

/-- fₖ from fₖ₋₁. -/
def nextFeat (f : FVec F SNF .f32) (src dst : IVec SE 32) : FVec F SNF .f32 :=
  featStep H f (aggregate H (scaled H f (invSqrtDeg H dst)) src dst) (invSqrtDeg H dst)

def feat1 (feat : FVec F SNF .f32) (src dst : IVec SE 32) : FVec F SNF .f32 := nextFeat H feat src dst
def feat2 (feat : FVec F SNF .f32) (src dst : IVec SE 32) : FVec F SNF .f32 := nextFeat H (feat1 H feat src dst) src dst
def feat3 (feat : FVec F SNF .f32) (src dst : IVec SE 32) : FVec F SNF .f32 := nextFeat H (feat2 H feat src dst) src dst

def h1 (feat : FVec F SNF .f32) (src dst : IVec SE 32) : FVec F SNF .f32 :=
  hStep H 0xBF4CCCCD#32 (hInit H feat) (feat1 H feat src dst)
def h2 (feat : FVec F SNF .f32) (src dst : IVec SE 32) : FVec F SNF .f32 :=
  hStep H 0x3ECCCCCD#32 (h1 H feat src dst) (feat2 H feat src dst)
/-- The result: h₃. -/
def h3 (feat : FVec F SNF .f32) (src dst : IVec SE 32) : FVec F SNF .f32 :=
  hStep H 0xBDCCCCCD#32 (h2 H feat src dst) (feat3 H feat src dst)

end Cert.PolySpec

end
-- ==== Proof.KernelDims.lean ====
/-
  The idealized kernel's records and side conditions for the host operations it shares with the reference.
-/
import proofs.«157465_j26542897889791_2_alg».proof.Proof.Gen.KernelIdeal
import proofs.«157465_j26542897889791_2_alg».proof.Proof.PolySpec

noncomputable section

namespace Cert.KernelIdeal.HostSide

open Cert.KernelIdeal Cert.KernelIdeal.Gen Cert.PolySpec Idealize.ShloMosaic

/-- The kernel program's records and side conditions for the shared host operations. -/
def hostDims : HostDims where
  bE := Facts₀.bcast_S_S1200000
  bN := Facts₀.bcast_S_S100000
  bE1 := Facts₀.bcast_S1200000_S1200000x1_0
  bN1 := Facts₀.bcast_S100000_S100000x1_0
  bNF := Facts₀.bcast_S_S100000x64
  bN1NF := by decide
  degDims := scatter_S100000_S1200000x1_S1200000_n_0_0_1
  rowGather := gather_S100000x64_S1200000x1_S1200000x64_1_0_n_n_0_1_164
  rowScatter := scatter_S100000x64_S1200000x1_S1200000x64_1_0_0_1

end Cert.KernelIdeal.HostSide

end
-- ==== Proof.LibGcnEpilogue.lean ====
/-
  The dense epilogue of one graph-convolution layer with self loops, on the extended reals, for any number of rows n
  and any width d:

      out[r, j] = (a[r, j] + h[r, j] · s[r, 0]) + b[0, j]

  where a holds the neighbours' aggregated rows, h the node's own projected row, s (an n×1 column) the weight of
  the node's self loop and b (a 1×d row) the bias — `selfLoopBias a h s b` — and the same rectified,
  max(out[r, j], 0) — `selfLoopBiasRelu a h s b`.

  Row r of the result depends on row r of a, h and s only. `selfLoopBias_rows` / `selfLoopBiasRelu_rows` say so for a
  block of consecutive rows starting at any row o: the whole arrays' result read through the block is the same function
  of the operands read through blocks at the same rows. A kernel tiled over rows needs nothing else.

  Two spellings are read to this form: the vector unit's (identity casts, the column and the bias row broadcast to
  n×d, multiply, add, add, and for the rectified form a maximum against a splatted zero) and the host's (the column and
  the row stretched by broadcast_in_dim along both axes). Also: a length-d vector stretched to a 1×d row by
  broadcast_in_dim along axis 1 is the same row as the vector cast to 1×d.
  The zero is kept as the extended real the all-zero f32 word denotes.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibGcnEpilogue

open Idealize.ShloMosaic Idealize.ShloMosaic.ValueIdx

/-- The extended real the all-zero f32 word denotes. -/
abbrev zero32 : EReal := Ideal.ofBits .f32 0x00000000#32

/-- (a[r, j] + h[r, j] · s[r, 0]) + b[0, j]. -/
def selfLoopBias {n d : Nat} (a h : (⟨2, ![n, d]⟩ : Shape).Idx → EReal) (s : (⟨2, ![n, 1]⟩ : Shape).Idx → EReal)
    (b : (⟨2, ![1, d]⟩ : Shape).Idx → EReal) : (⟨2, ![n, d]⟩ : Shape).Idx → EReal :=
  fun i => a i + h i * s (ix2 ⟨(i 0).val, idx2_lt0 i⟩ (0 : Fin 1)) + b (ix2 (0 : Fin 1) ⟨(i 1).val, idx2_lt1 i⟩)

theorem selfLoopBias_ix2 {n d : Nat} (a h : (⟨2, ![n, d]⟩ : Shape).Idx → EReal) (s : (⟨2, ![n, 1]⟩ : Shape).Idx → EReal)
    (b : (⟨2, ![1, d]⟩ : Shape).Idx → EReal) (p : Fin n) (q : Fin d) :
    selfLoopBias a h s b (ix2 p q) = a (ix2 p q) + h (ix2 p q) * s (ix2 p (0 : Fin 1)) + b (ix2 (0 : Fin 1) q) := rfl

/-- max((a[r, j] + h[r, j] · s[r, 0]) + b[0, j], 0). -/
def selfLoopBiasRelu {n d : Nat} (a h : (⟨2, ![n, d]⟩ : Shape).Idx → EReal) (s : (⟨2, ![n, 1]⟩ : Shape).Idx → EReal)
    (b : (⟨2, ![1, d]⟩ : Shape).Idx → EReal) : (⟨2, ![n, d]⟩ : Shape).Idx → EReal :=
  fun i => max (selfLoopBias a h s b i) zero32

/-! ## A block of consecutive rows -/

/-- A block of n consecutive rows of `selfLoopBias a h s b`, from row o on, is `selfLoopBias` of that block of rows of
    a, of h and of the column s, with the same bias row. The result, a and h may each be read through a block of its
    own (`e`, `ea`, `eh`): all three keep the column and shift the row by o, and the block `e1` of the column shifts
    the row by the same o. -/
theorem selfLoopBias_rows {n N d : Nat} (a h : (⟨2, ![N, d]⟩ : Shape).Idx → EReal) (s : (⟨2, ![N, 1]⟩ : Shape).Idx → EReal)
    (b : (⟨2, ![1, d]⟩ : Shape).Idx → EReal)
    (e ea eh : (⟨2, ![n, d]⟩ : Shape).Idx → (⟨2, ![N, d]⟩ : Shape).Idx)
    (e1 : (⟨2, ![n, 1]⟩ : Shape).Idx → (⟨2, ![N, 1]⟩ : Shape).Idx)
    (o : Nat) (he0 : ∀ y, (e y 0).val = o + (y 0).val) (he1 : ∀ y, (e y 1).val = (y 1).val)
    (hea0 : ∀ y, (ea y 0).val = o + (y 0).val) (hea1 : ∀ y, (ea y 1).val = (y 1).val)
    (heh0 : ∀ y, (eh y 0).val = o + (y 0).val) (heh1 : ∀ y, (eh y 1).val = (y 1).val)
    (hs0 : ∀ y, (e1 y 0).val = o + (y 0).val) :
    (fun y => selfLoopBias a h s b (e y)) = selfLoopBias (fun y => a (ea y)) (fun y => h (eh y)) (fun y => s (e1 y)) b := by
  funext y
  unfold selfLoopBias
  have hcol : (ix2 ⟨(e y 0).val, idx2_lt0 _⟩ (0 : Fin 1) : (⟨2, ![N, 1]⟩ : Shape).Idx)
      = e1 (ix2 ⟨(y 0).val, idx2_lt0 y⟩ (0 : Fin 1)) := by
    funext ax; apply Fin.ext
    match ax with
    | ⟨0, _⟩ => show (e y 0).val = (e1 (ix2 ⟨(y 0).val, idx2_lt0 y⟩ (0 : Fin 1)) 0).val; rw [he0, hs0]; rfl
    | ⟨1, _⟩ =>
      show (0 : Nat) = (e1 (ix2 ⟨(y 0).val, idx2_lt0 y⟩ (0 : Fin 1)) 1).val
      have := idx2_lt1 (e1 (ix2 ⟨(y 0).val, idx2_lt0 y⟩ (0 : Fin 1))); omega
  have hrow : (ix2 (0 : Fin 1) ⟨(e y 1).val, idx2_lt1 _⟩ : (⟨2, ![1, d]⟩ : Shape).Idx) = ix2 (0 : Fin 1) ⟨(y 1).val, idx2_lt1 y⟩ := by
    funext ax; apply Fin.ext
    match ax with
    | ⟨0, _⟩ => rfl
    | ⟨1, _⟩ => show (e y 1).val = (y 1).val; rw [he1]
  have hea : ea y = e y := by
    funext ax; apply Fin.ext
    match ax with
    | ⟨0, _⟩ => show (ea y 0).val = (e y 0).val; rw [hea0, he0]
    | ⟨1, _⟩ => show (ea y 1).val = (e y 1).val; rw [hea1, he1]
  have heh : eh y = e y := by
    funext ax; apply Fin.ext
    match ax with
    | ⟨0, _⟩ => show (eh y 0).val = (e y 0).val; rw [heh0, he0]
    | ⟨1, _⟩ => show (eh y 1).val = (e y 1).val; rw [heh1, he1]
  rw [hcol, hrow]
  dsimp only
  rw [hea, heh]

/-- The same for the rectified form. -/
theorem selfLoopBiasRelu_rows {n N d : Nat} (a h : (⟨2, ![N, d]⟩ : Shape).Idx → EReal) (s : (⟨2, ![N, 1]⟩ : Shape).Idx → EReal)
    (b : (⟨2, ![1, d]⟩ : Shape).Idx → EReal)
    (e ea eh : (⟨2, ![n, d]⟩ : Shape).Idx → (⟨2, ![N, d]⟩ : Shape).Idx)
    (e1 : (⟨2, ![n, 1]⟩ : Shape).Idx → (⟨2, ![N, 1]⟩ : Shape).Idx)
    (o : Nat) (he0 : ∀ y, (e y 0).val = o + (y 0).val) (he1 : ∀ y, (e y 1).val = (y 1).val)
    (hea0 : ∀ y, (ea y 0).val = o + (y 0).val) (hea1 : ∀ y, (ea y 1).val = (y 1).val)
    (heh0 : ∀ y, (eh y 0).val = o + (y 0).val) (heh1 : ∀ y, (eh y 1).val = (y 1).val)
    (hs0 : ∀ y, (e1 y 0).val = o + (y 0).val) :
    (fun y => selfLoopBiasRelu a h s b (e y))
      = selfLoopBiasRelu (fun y => a (ea y)) (fun y => h (eh y)) (fun y => s (e1 y)) b := by
  funext y
  unfold selfLoopBiasRelu
  exact congrArg (fun v => max v zero32)
    (congrFun (selfLoopBias_rows a h s b e ea eh e1 o he0 he1 hea0 hea1 heh0 heh1 hs0) y)

/-! ## Broadcasts of a column and of a row, read at an index -/

/-- An a×1 column broadcast to a×b reads, at (p, c), the column at p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An a×1 column stretched to a×b by broadcast_in_dim along both axes reads, at (p, c), the column at p. -/
theorem broadcastInDim_a1_ab_apply {a b : ℕ} {α : Type} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A 1×b row stretched to a×b by broadcast_in_dim along both axes reads, at (p, c), the row at c. -/
theorem broadcastInDim_1b_ab_apply {a b : ℕ} {α : Type} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-b vector stretched to a 1×b row by broadcast_in_dim along axis 1 is the vector cast to 1×b. -/
theorem broadcastInDim_b_1b_eq_shapeCast {b : ℕ} {α : Type} (v : (⟨1, ![b]⟩ : Shape).Idx → α)
    (h : (⟨1, ![b]⟩ : Shape).BroadcastsInDim ⟨2, ![1, b]⟩ ![1]) (hc : (⟨1, ![b]⟩ : Shape).ShapeCasts ⟨2, ![1, b]⟩) :
    broadcastInDim ⟨2, ![1, b]⟩ ![1] h v = shapeCast ⟨2, ![1, b]⟩ v hc := by
  funext i
  obtain ⟨u, j, rfl⟩ : ∃ (u : Fin 1) (j : Fin b), i = ix2 u j := ⟨i 0, i 1, eq_ix2 i⟩
  rw [shapeCast_a_1a_apply]
  refine broadcastInDim_apply _ h v (ix2 u j) (ix1 j) fun ax => ?_
  match ax with
  | ⟨0, _⟩ =>
    show j.val = if b = 1 then 0 else j.val
    split
    · have := j.isLt; omega
    · rfl

/-! ## The two spellings -/

/-- The vector unit's spelling: identity casts of the four loaded blocks, the column and the bias row broadcast to
    n×d, multiply, add, add. -/
theorem vec_selfLoopBias {n d : Nat} (v0 v2 : FVec Ideal ⟨2, ![n, d]⟩ .f32) (v4 : FVec Ideal ⟨2, ![n, 1]⟩ .f32)
    (v9 : FVec Ideal ⟨2, ![1, d]⟩ .f32)
    (c0 : (⟨2, ![n, d]⟩ : Shape).ShapeCasts ⟨2, ![n, d]⟩) (c4 : (⟨2, ![n, 1]⟩ : Shape).ShapeCasts ⟨2, ![n, 1]⟩)
    (c9 : (⟨2, ![1, d]⟩ : Shape).ShapeCasts ⟨2, ![1, d]⟩)
    (b4 : (⟨2, ![n, 1]⟩ : Shape).Broadcasts ⟨2, ![n, d]⟩) (b9 : (⟨2, ![1, d]⟩ : Shape).Broadcasts ⟨2, ![n, d]⟩) :
    addf (addf (shapeCast ⟨2, ![n, d]⟩ v0 c0) (mulf (shapeCast ⟨2, ![n, d]⟩ v2 c0)
        (broadcastTo ⟨2, ![n, d]⟩ (shapeCast ⟨2, ![n, 1]⟩ v4 c4) b4)))
      (broadcastTo ⟨2, ![n, d]⟩ (shapeCast ⟨2, ![1, d]⟩ v9 c9) b9)
      = selfLoopBias v0 v2 v4 v9 := by
  funext i
  obtain ⟨p, q, rfl⟩ : ∃ (p : Fin n) (q : Fin d), i = ix2 p q := ⟨i 0, i 1, eq_ix2 i⟩
  rw [selfLoopBias_ix2, addf_apply, addf_apply, mulf_apply, shapeCast_self, shapeCast_self, shapeCast_self, shapeCast_self,
    broadcastTo_a1_ab_apply, broadcastTo_1b_ab_apply]

/-- The vector unit's rectified spelling: the same, then the maximum against a splatted zero. -/
theorem vec_selfLoopBiasRelu {n d : Nat} (v0 v2 : FVec Ideal ⟨2, ![n, d]⟩ .f32) (v4 : FVec Ideal ⟨2, ![n, 1]⟩ .f32)
    (v9 : FVec Ideal ⟨2, ![1, d]⟩ .f32)
    (c0 : (⟨2, ![n, d]⟩ : Shape).ShapeCasts ⟨2, ![n, d]⟩) (c4 : (⟨2, ![n, 1]⟩ : Shape).ShapeCasts ⟨2, ![n, 1]⟩)
    (c9 : (⟨2, ![1, d]⟩ : Shape).ShapeCasts ⟨2, ![1, d]⟩)
    (b4 : (⟨2, ![n, 1]⟩ : Shape).Broadcasts ⟨2, ![n, d]⟩) (b9 : (⟨2, ![1, d]⟩ : Shape).Broadcasts ⟨2, ![n, d]⟩) :
    maximumf (addf (addf (shapeCast ⟨2, ![n, d]⟩ v0 c0) (mulf (shapeCast ⟨2, ![n, d]⟩ v2 c0)
        (broadcastTo ⟨2, ![n, d]⟩ (shapeCast ⟨2, ![n, 1]⟩ v4 c4) b4)))
      (broadcastTo ⟨2, ![n, d]⟩ (shapeCast ⟨2, ![1, d]⟩ v9 c9) b9))
      (broadcast ⟨2, ![n, d]⟩ (Scalar.ofBits .f32 0x00000000#32 : Ideal .f32))
      = selfLoopBiasRelu v0 v2 v4 v9 := by
  rw [vec_selfLoopBias]
  rfl

/-- The host's spelling: the column and the bias row stretched to n×d by broadcast_in_dim, multiply, add, add. -/
theorem host_selfLoopBias {n d : Nat} (a h : FVec Ideal ⟨2, ![n, d]⟩ .f32) (s : FVec Ideal ⟨2, ![n, 1]⟩ .f32)
    (b : FVec Ideal ⟨2, ![1, d]⟩ .f32)
    (hs : (⟨2, ![n, 1]⟩ : Shape).BroadcastsInDim ⟨2, ![n, d]⟩ ![0, 1])
    (hb : (⟨2, ![1, d]⟩ : Shape).BroadcastsInDim ⟨2, ![n, d]⟩ ![0, 1]) :
    addf (addf a (mulf h (broadcastInDim ⟨2, ![n, d]⟩ ![0, 1] hs s))) (broadcastInDim ⟨2, ![n, d]⟩ ![0, 1] hb b)
      = selfLoopBias a h s b := by
  funext i
  obtain ⟨p, q, rfl⟩ : ∃ (p : Fin n) (q : Fin d), i = ix2 p q := ⟨i 0, i 1, eq_ix2 i⟩
  rw [selfLoopBias_ix2, addf_apply, addf_apply, mulf_apply, broadcastInDim_a1_ab_apply, broadcastInDim_1b_ab_apply]

end Cert.LibGcnEpilogue

end
-- ==== Proof.LibLaplacianStep.lean ====
/-
  The dense part of one step of a polynomial in a degree-normalised graph Laplacian, on the extended reals, for any
  number of rows n and any width d. With s an n×1 column (the nodes' inverse square-root degrees), a the rows
  aggregated from the neighbours and θ a coefficient:

      rowScale a s [r, j] = a[r, j] · s[r, 0]
      lapStep f a s [r, j] = f[r, j] − a[r, j] · s[r, 0]
      scaleBy θ x   [r, j] = θ · x[r, j]
      axpy θ h x    [r, j] = h[r, j] + θ · x[r, j]

  Row r of each result depends on row r of its operands only. The `_rows` laws say so for a block of consecutive
  rows starting at any row o: the whole arrays' result read through the block is the same function of the operands
  read through blocks at the same rows (each operand through a block of its own). A kernel tiled over rows needs
  nothing else, and the laws compose: a block of `axpy θ h (lapStep f a s)` is `axpy` of the blocks.

  Two spellings are read to these forms: the vector unit's (identity casts, the column broadcast to n×d, a splatted
  coefficient) and the host's (the column stretched by broadcast_in_dim along both axes, the coefficient a rank-0
  constant stretched to n×d). A coefficient stays the extended real its f32 word denotes.
-/
import Idealize.ShloMosaic.PureOps.Ideal.Laws
import Idealize.ShloMosaic.Lib.ValueIdx
import Idealize.ShloMosaic.Lib.ValueLayout
import Idealize.ShloMosaic.Lib.Pipeline.Value
import proofs.«157465_j26542897889791_2_alg».proof.Proof.LibGcnEpilogue

noncomputable section

namespace Cert.LibLaplacianStep

open Idealize.ShloMosaic Idealize.ShloMosaic.ValueIdx Cert.LibGcnEpilogue

/-- a[r, j] · s[r, 0]. -/
def rowScale {n d : Nat} (a : (⟨2, ![n, d]⟩ : Shape).Idx → EReal) (s : (⟨2, ![n, 1]⟩ : Shape).Idx → EReal) :
    (⟨2, ![n, d]⟩ : Shape).Idx → EReal :=
  fun i => a i * s (ix2 ⟨(i 0).val, idx2_lt0 i⟩ (0 : Fin 1))

/-- f[r, j] − a[r, j] · s[r, 0]. -/
def lapStep {n d : Nat} (f a : (⟨2, ![n, d]⟩ : Shape).Idx → EReal) (s : (⟨2, ![n, 1]⟩ : Shape).Idx → EReal) :
    (⟨2, ![n, d]⟩ : Shape).Idx → EReal :=
  fun i => f i - a i * s (ix2 ⟨(i 0).val, idx2_lt0 i⟩ (0 : Fin 1))

/-- θ · x[r, j]. -/
def scaleBy {n d : Nat} (θ : EReal) (x : (⟨2, ![n, d]⟩ : Shape).Idx → EReal) : (⟨2, ![n, d]⟩ : Shape).Idx → EReal :=
  fun i => θ * x i

/-- h[r, j] + θ · x[r, j]. -/
def axpy {n d : Nat} (θ : EReal) (h x : (⟨2, ![n, d]⟩ : Shape).Idx → EReal) : (⟨2, ![n, d]⟩ : Shape).Idx → EReal :=
  fun i => h i + θ * x i

theorem rowScale_ix2 {n d : Nat} (a : (⟨2, ![n, d]⟩ : Shape).Idx → EReal) (s : (⟨2, ![n, 1]⟩ : Shape).Idx → EReal)
    (p : Fin n) (q : Fin d) : rowScale a s (ix2 p q) = a (ix2 p q) * s (ix2 p (0 : Fin 1)) := rfl

theorem lapStep_ix2 {n d : Nat} (f a : (⟨2, ![n, d]⟩ : Shape).Idx → EReal) (s : (⟨2, ![n, 1]⟩ : Shape).Idx → EReal)
    (p : Fin n) (q : Fin d) : lapStep f a s (ix2 p q) = f (ix2 p q) - a (ix2 p q) * s (ix2 p (0 : Fin 1)) := rfl

/-! ## A block of consecutive rows -/

/-- Two blocks of an n×d array that both keep the column and shift the row by o are one block. -/
theorem block_eq {n N d : Nat} (e e' : (⟨2, ![n, d]⟩ : Shape).Idx → (⟨2, ![N, d]⟩ : Shape).Idx) (o : Nat)
    (he0 : ∀ y, (e y 0).val = o + (y 0).val) (he1 : ∀ y, (e y 1).val = (y 1).val)
    (he0' : ∀ y, (e' y 0).val = o + (y 0).val) (he1' : ∀ y, (e' y 1).val = (y 1).val) (y) : e' y = e y := by
  funext ax; apply Fin.ext
  match ax with
  | ⟨0, _⟩ => show (e' y 0).val = (e y 0).val; rw [he0', he0]
  | ⟨1, _⟩ => show (e' y 1).val = (e y 1).val; rw [he1', he1]

/-- The column entry of row (e y 0), for a block e of rows from o on, is the column's block e1 read at row (y 0). -/
theorem column_block {n N d : Nat} (e : (⟨2, ![n, d]⟩ : Shape).Idx → (⟨2, ![N, d]⟩ : Shape).Idx)
    (e1 : (⟨2, ![n, 1]⟩ : Shape).Idx → (⟨2, ![N, 1]⟩ : Shape).Idx) (o : Nat)
    (he0 : ∀ y, (e y 0).val = o + (y 0).val) (hs0 : ∀ y, (e1 y 0).val = o + (y 0).val) (y : (⟨2, ![n, d]⟩ : Shape).Idx) :
    (ix2 ⟨(e y 0).val, idx2_lt0 _⟩ (0 : Fin 1) : (⟨2, ![N, 1]⟩ : Shape).Idx)
      = e1 (ix2 ⟨(y 0).val, idx2_lt0 y⟩ (0 : Fin 1)) := by
  funext ax; apply Fin.ext
  match ax with
  | ⟨0, _⟩ => show (e y 0).val = (e1 (ix2 ⟨(y 0).val, idx2_lt0 y⟩ (0 : Fin 1)) 0).val; rw [he0, hs0]; rfl
  | ⟨1, _⟩ =>
    show (0 : Nat) = (e1 (ix2 ⟨(y 0).val, idx2_lt0 y⟩ (0 : Fin 1)) 1).val
    have := idx2_lt1 (e1 (ix2 ⟨(y 0).val, idx2_lt0 y⟩ (0 : Fin 1))); omega

/-- A block of n consecutive rows of `rowScale a s`, from row o on, is `rowScale` of that block of rows of a and of
    the column s. -/
theorem rowScale_rows {n N d : Nat} (a : (⟨2, ![N, d]⟩ : Shape).Idx → EReal) (s : (⟨2, ![N, 1]⟩ : Shape).Idx → EReal)
    (e ea : (⟨2, ![n, d]⟩ : Shape).Idx → (⟨2, ![N, d]⟩ : Shape).Idx)
    (e1 : (⟨2, ![n, 1]⟩ : Shape).Idx → (⟨2, ![N, 1]⟩ : Shape).Idx)
    (o : Nat) (he0 : ∀ y, (e y 0).val = o + (y 0).val) (he1 : ∀ y, (e y 1).val = (y 1).val)
    (hea0 : ∀ y, (ea y 0).val = o + (y 0).val) (hea1 : ∀ y, (ea y 1).val = (y 1).val)
    (hs0 : ∀ y, (e1 y 0).val = o + (y 0).val) :
    (fun y => rowScale a s (e y)) = rowScale (fun y => a (ea y)) (fun y => s (e1 y)) := by
  funext y
  unfold rowScale
  rw [column_block e e1 o he0 hs0 y]
  dsimp only
  rw [block_eq e ea o he0 he1 hea0 hea1 y]

/-- A block of n consecutive rows of `lapStep f a s`, from row o on, is `lapStep` of that block of rows of f, of a and
    of the column s. -/
theorem lapStep_rows {n N d : Nat} (f a : (⟨2, ![N, d]⟩ : Shape).Idx → EReal) (s : (⟨2, ![N, 1]⟩ : Shape).Idx → EReal)
    (e ef ea : (⟨2, ![n, d]⟩ : Shape).Idx → (⟨2, ![N, d]⟩ : Shape).Idx)
    (e1 : (⟨2, ![n, 1]⟩ : Shape).Idx → (⟨2, ![N, 1]⟩ : Shape).Idx)
    (o : Nat) (he0 : ∀ y, (e y 0).val = o + (y 0).val) (he1 : ∀ y, (e y 1).val = (y 1).val)
    (hef0 : ∀ y, (ef y 0).val = o + (y 0).val) (hef1 : ∀ y, (ef y 1).val = (y 1).val)
    (hea0 : ∀ y, (ea y 0).val = o + (y 0).val) (hea1 : ∀ y, (ea y 1).val = (y 1).val)
    (hs0 : ∀ y, (e1 y 0).val = o + (y 0).val) :
    (fun y => lapStep f a s (e y)) = lapStep (fun y => f (ef y)) (fun y => a (ea y)) (fun y => s (e1 y)) := by
  funext y
  unfold lapStep
  rw [column_block e e1 o he0 hs0 y]
  dsimp only
  rw [block_eq e ef o he0 he1 hef0 hef1 y, block_eq e ea o he0 he1 hea0 hea1 y]

/-- A block of `scaleBy θ x` is `scaleBy θ` of the block of x. -/
theorem scaleBy_rows {n N d : Nat} (θ : EReal) (x : (⟨2, ![N, d]⟩ : Shape).Idx → EReal)
    (e : (⟨2, ![n, d]⟩ : Shape).Idx → (⟨2, ![N, d]⟩ : Shape).Idx) :
    (fun y => scaleBy θ x (e y)) = scaleBy θ (fun y => x (e y)) := rfl

/-- A block of `axpy θ h x` is `axpy θ` of the blocks of h (through a block of its own) and of x. -/
theorem axpy_rows {n N d : Nat} (θ : EReal) (h x : (⟨2, ![N, d]⟩ : Shape).Idx → EReal)
    (e eh : (⟨2, ![n, d]⟩ : Shape).Idx → (⟨2, ![N, d]⟩ : Shape).Idx)
    (o : Nat) (he0 : ∀ y, (e y 0).val = o + (y 0).val) (he1 : ∀ y, (e y 1).val = (y 1).val)
    (heh0 : ∀ y, (eh y 0).val = o + (y 0).val) (heh1 : ∀ y, (eh y 1).val = (y 1).val) :
    (fun y => axpy θ h x (e y)) = axpy θ (fun y => h (eh y)) (fun y => x (e y)) := by
  funext y
  unfold axpy
  dsimp only
  rw [block_eq e eh o he0 he1 heh0 heh1 y]

/-! ## The vector unit's spellings -/

theorem vec_rowScale {n d : Nat} (x : FVec Ideal ⟨2, ![n, d]⟩ .f32) (s : FVec Ideal ⟨2, ![n, 1]⟩ .f32)
    (c1 : (⟨2, ![n, 1]⟩ : Shape).ShapeCasts ⟨2, ![n, 1]⟩) (b1 : (⟨2, ![n, 1]⟩ : Shape).Broadcasts ⟨2, ![n, d]⟩) :
    mulf x (broadcastTo ⟨2, ![n, d]⟩ (shapeCast ⟨2, ![n, 1]⟩ s c1) b1) = rowScale x s := by
  funext i
  obtain ⟨p, q, rfl⟩ : ∃ (p : Fin n) (q : Fin d), i = ix2 p q := ⟨i 0, i 1, eq_ix2 i⟩
  rw [rowScale_ix2, mulf_apply, shapeCast_self, broadcastTo_a1_ab_apply]

theorem vec_lapStep {n d : Nat} (x0 x1 : FVec Ideal ⟨2, ![n, d]⟩ .f32) (s : FVec Ideal ⟨2, ![n, 1]⟩ .f32)
    (c0 : (⟨2, ![n, d]⟩ : Shape).ShapeCasts ⟨2, ![n, d]⟩)
    (c1 : (⟨2, ![n, 1]⟩ : Shape).ShapeCasts ⟨2, ![n, 1]⟩) (b1 : (⟨2, ![n, 1]⟩ : Shape).Broadcasts ⟨2, ![n, d]⟩) :
    subf x0 (mulf (shapeCast ⟨2, ![n, d]⟩ x1 c0) (broadcastTo ⟨2, ![n, d]⟩ (shapeCast ⟨2, ![n, 1]⟩ s c1) b1))
      = lapStep x0 x1 s := by
  funext i
  obtain ⟨p, q, rfl⟩ : ∃ (p : Fin n) (q : Fin d), i = ix2 p q := ⟨i 0, i 1, eq_ix2 i⟩
  rw [lapStep_ix2, subf_apply, mulf_apply, shapeCast_self, shapeCast_self, broadcastTo_a1_ab_apply]

/-- The same when the first operand too went through an identity cast (a block loaded from an earlier step's output). -/
theorem vec_lapStep_cast {n d : Nat} (x0 x1 : FVec Ideal ⟨2, ![n, d]⟩ .f32) (s : FVec Ideal ⟨2, ![n, 1]⟩ .f32)
    (c0 : (⟨2, ![n, d]⟩ : Shape).ShapeCasts ⟨2, ![n, d]⟩)
    (c1 : (⟨2, ![n, 1]⟩ : Shape).ShapeCasts ⟨2, ![n, 1]⟩) (b1 : (⟨2, ![n, 1]⟩ : Shape).Broadcasts ⟨2, ![n, d]⟩) :
    subf (shapeCast ⟨2, ![n, d]⟩ x0 c0)
        (mulf (shapeCast ⟨2, ![n, d]⟩ x1 c0) (broadcastTo ⟨2, ![n, d]⟩ (shapeCast ⟨2, ![n, 1]⟩ s c1) b1))
      = lapStep x0 x1 s := by
  rw [shapeCast_self x0 c0]
  exact vec_lapStep x0 x1 s c0 c1 b1

theorem vec_scaleBy {n d : Nat} (w : BitVec 32) (x : FVec Ideal ⟨2, ![n, d]⟩ .f32) :
    mulf (broadcast ⟨2, ![n, d]⟩ (Scalar.ofBits .f32 w : Ideal .f32)) x = scaleBy (Ideal.ofBits .f32 w) x := rfl

theorem vec_axpy {n d : Nat} (w : BitVec 32) (h x : FVec Ideal ⟨2, ![n, d]⟩ .f32)
    (c0 : (⟨2, ![n, d]⟩ : Shape).ShapeCasts ⟨2, ![n, d]⟩) :
    addf (shapeCast ⟨2, ![n, d]⟩ h c0) (mulf (broadcast ⟨2, ![n, d]⟩ (Scalar.ofBits .f32 w : Ideal .f32)) x)
      = axpy (Ideal.ofBits .f32 w) h x := by
  rw [shapeCast_self]; rfl

/-! ## The host's spellings -/

theorem host_rowScale {n d : Nat} (a : FVec Ideal ⟨2, ![n, d]⟩ .f32) (s : FVec Ideal ⟨2, ![n, 1]⟩ .f32)
    (hs : (⟨2, ![n, 1]⟩ : Shape).BroadcastsInDim ⟨2, ![n, d]⟩ ![0, 1]) :
    mulf a (broadcastInDim ⟨2, ![n, d]⟩ ![0, 1] hs s) = rowScale a s := by
  funext i
  obtain ⟨p, q, rfl⟩ : ∃ (p : Fin n) (q : Fin d), i = ix2 p q := ⟨i 0, i 1, eq_ix2 i⟩
  rw [rowScale_ix2, mulf_apply, broadcastInDim_a1_ab_apply]

theorem host_lapStep {n d : Nat} (f a : FVec Ideal ⟨2, ![n, d]⟩ .f32) (s : FVec Ideal ⟨2, ![n, 1]⟩ .f32)
    (hs : (⟨2, ![n, 1]⟩ : Shape).BroadcastsInDim ⟨2, ![n, d]⟩ ![0, 1]) :
    subf f (mulf a (broadcastInDim ⟨2, ![n, d]⟩ ![0, 1] hs s)) = lapStep f a s := by
  funext i
  obtain ⟨p, q, rfl⟩ : ∃ (p : Fin n) (q : Fin d), i = ix2 p q := ⟨i 0, i 1, eq_ix2 i⟩
  rw [lapStep_ix2, subf_apply, mulf_apply, broadcastInDim_a1_ab_apply]

theorem host_scaleBy {n d : Nat} (w : BitVec 32) (x : FVec Ideal ⟨2, ![n, d]⟩ .f32)
    (hb : (⟨0, ![]⟩ : Shape).BroadcastsInDim ⟨2, ![n, d]⟩ ![]) :
    mulf (broadcastInDim ⟨2, ![n, d]⟩ ![] hb (constant (F := Ideal) ⟨0, ![]⟩ .f32 w)) x = scaleBy (Ideal.ofBits .f32 w) x := rfl

theorem host_axpy {n d : Nat} (w : BitVec 32) (h x : FVec Ideal ⟨2, ![n, d]⟩ .f32)
    (hb : (⟨0, ![]⟩ : Shape).BroadcastsInDim ⟨2, ![n, d]⟩ ![]) :
    addf h (mulf (broadcastInDim ⟨2, ![n, d]⟩ ![] hb (constant (F := Ideal) ⟨0, ![]⟩ .f32 w)) x)
      = axpy (Ideal.ofBits .f32 w) h x := rfl

end Cert.LibLaplacianStep

end
-- ==== Proof.Region0.lean ====
/-
  Region 0 (the start of the recurrence, on a block of 4000 rows per grid point): what its two output arrays hold when
  it ends, as functions of the arrays it is entered with. At point t each window's block is rows 4000·t … 4000·t + 3999
  (the 100000 × 1 column's block the same rows), the body's two stores are 1·feat and feat·d on those rows, and the 25
  blocks tile the 100000 rows; so the arrays end as the whole-array 1·feat and feat·d.
-/
import proofs.«157465_j26542897889791_2_alg».proof.Proof.Gen.KernelIdeal.Frame
import proofs.«157465_j26542897889791_2_alg».proof.Proof.KernelDims
import proofs.«157465_j26542897889791_2_alg».proof.Proof.LibLaplacianStep
import Idealize.ShloMosaic.Lib.Pipeline.Value

set_option maxRecDepth 16384

noncomputable section

namespace Cert.KernelIdeal.Region0

open Cert.KernelIdeal Cert.KernelIdeal.Gen Cert.KernelIdeal.HostSide Cert.PolySpec Cert.LibLaplacianStep
open Idealize.ShloMosaic Idealize.ShloMosaic.TcCoe Idealize.SL.Sem
open Idealize.ShloMosaic.Pipeline (Dat)

/-! ## The body's two stores on a block of rows -/

section Blocks

variable (X : S100000x64.Idx → EReal) (D : S100000x1.Idx → EReal)
  (e e0 : S4000x64.Idx → S100000x64.Idx) (e1 : S4000x1.Idx → S100000x1.Idx) (o : Nat)
  (he0 : ∀ y, (e y 0).val = o + (y 0).val) (he1 : ∀ y, (e y 1).val = (y 1).val)
  (h00 : ∀ y, (e0 y 0).val = o + (y 0).val) (h01 : ∀ y, (e0 y 1).val = (y 1).val)
  (h10 : ∀ y, (e1 y 0).val = o + (y 0).val)

include he0 he1 h00 h01 in
/-- The first store: the block's 1·feat is the block of the whole array's 1·feat. -/
theorem init_block :
    k0_pay1 (F := Ideal) (fun y => X (e0 y)) = fun y => hInit (F := Ideal) hostDims X (e y) := by
  show mulf (F := Ideal) (s := S4000x64) (φ := .f32) (broadcast S4000x64 (Scalar.ofBits .f32 0x3F800000#32 : Ideal .f32))
    (fun y => X (e0 y)) = _
  rw [vec_scaleBy]
  unfold hInit coeff
  rw [host_scaleBy]
  funext y
  show Ideal.ofBits .f32 0x3F800000#32 * X (e0 y) = Ideal.ofBits .f32 0x3F800000#32 * X (e y)
  rw [block_eq e e0 o he0 he1 h00 h01 y]

include he0 he1 h00 h01 h10 in
/-- The second store: the blocks' feat·d. -/
theorem scaled_block :
    k0_pay2 (F := Ideal) (fun y => X (e0 y)) (fun y => D (e1 y))
      = fun y => scaled (F := Ideal) hostDims X D (e y) := by
  show mulf (F := Ideal) (s := S4000x64) (φ := .f32) (fun y => X (e0 y))
    (broadcastTo S4000x64 (shapeCast S4000x1 (fun y => D (e1 y)) _) _) = _
  rw [vec_rowScale]
  unfold scaled stretch
  rw [host_rowScale]
  exact (rowScale_rows X D e e0 e1 o he0 he1 h00 h01 h10).symm

end Blocks

/-! ## The blocks, and the arrays when the region ends -/

variable (V : (c : Dev nD) → (b : Ref sig .tc) → Buf (Elt Ideal) ((c : Thread nD τ).loc b))

theorem origin : (![0, 0] : Fin 2 → Nat) = fun _ => 0 := funext fun a => by fin_cases a <;> rfl

/-- Every window's block index at point t is (t, 0), decided over the 25 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ### Output window 2 -/

set_option backward.isDefEq.respectTransparency.types false in
/-- What point t writes back to the accumulator's array is block t of 1·feat. -/
theorem flushed2_eq (c : Dev nD) (t : Fin cfg0.N) :
    (dat0 V c).flushed 2 t = ((cfg0.win 2).blk t).view.read (Elt Ideal)
      (hInit (F := Ideal) hostDims (V c main_arg0) : S100000x64.Idx → Elt Ideal .f32) := by
  show (cfg0.win 2).cut (grid0.coords t) ((dat0 V c).after 2 t) = _
  rw [after0_2]; unfold out0_2
  rw [View.canon_unit_zero origin]
  simp only [View.ld_unit_zero (S := S4000x64) origin, View.ld_unit_zero (S := S4000x1) origin]
  obtain ⟨a0, b0, a1, b1, a2, b2, a3, b3⟩ := block_index t
  exact init_block (V c main_arg0) (((cfg0.win 2).blk t).view.emb) (((cfg0.win 0).blk t).view.emb) (4000 * t.val)
    (fun y => by show win0_2.index t (0 : Fin 2) * 4000 + 1 * (y 0).val = _; omega) (fun y => by show win0_2.index t (1 : Fin 2) * 64 + 1 * (y 1).val = _; omega)
    (fun y => by show win0_0.index t (0 : Fin 2) * 4000 + 1 * (y 0).val = _; omega) (fun y => by show win0_0.index t (1 : Fin 2) * 64 + 1 * (y 1).val = _; omega)

/-- An index of the array is in point t's block iff each coordinate is in the block's range on its axis. -/
theorem mem_block2 (t : Fin cfg0.N) (i : S100000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v8_0).slice (win0_2.rect t)).set ↔ _
  rw [View.set_slice_whole, Rect.mem_set_unit]
  exact Iff.rfl

/-- Row r is in the block of point r / 4000: the 25 blocks cover the array. -/
theorem cover2 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  have ht : (i 0).val / 4000 < cfg0.N := by rw [hN]; omega
  refine ⟨⟨(i 0).val / 4000, ht⟩, flush0_2 _, ?_⟩
  rw [mem_block2]
  obtain ⟨a0, b0, a1, b1, a2, b2, a3, b3⟩ := block_index ⟨(i 0).val / 4000, ht⟩
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [a2]; show (i 0).val / 4000 * 4000 ≤ (i 0).val ∧ (i 0).val < (i 0).val / 4000 * 4000 + 4000; omega
  | ⟨1, _⟩ =>
    show win0_2.index ⟨(i 0).val / 4000, ht⟩ (1 : Fin 2) * 64 ≤ (i 1).val
      ∧ (i 1).val < win0_2.index ⟨(i 0).val / 4000, ht⟩ (1 : Fin 2) * 64 + 64
    rw [b2]; omega

/-- The array when the region ends. -/
theorem final2 (c : Dev nD) :
    (dat0 V c).arrAt 2 cfg0.N = (hInit (F := Ideal) hostDims (V c main_arg0) : S100000x64.Idx → Elt Ideal .f32) :=
  (dat0 V c).arrAt_eq_of_cover 2 _ (fun t _ => flushed2_eq V c t) cover2

/-! ### Output window 3 -/

set_option backward.isDefEq.respectTransparency.types false in
/-- What point t writes back to the rescaled features' array is block t of feat·d. -/
theorem flushed3_eq (c : Dev nD) (t : Fin cfg0.N) :
    (dat0 V c).flushed 3 t = ((cfg0.win 3).blk t).view.read (Elt Ideal)
      (scaled (F := Ideal) hostDims (V c main_arg0) (V c main_v7) : S100000x64.Idx → Elt Ideal .f32) := by
  show (cfg0.win 3).cut (grid0.coords t) ((dat0 V c).after 3 t) = _
  rw [after0_3]; unfold out0_3
  rw [View.canon_unit_zero origin]
  simp only [View.ld_unit_zero (S := S4000x64) origin, View.ld_unit_zero (S := S4000x1) origin]
  obtain ⟨a0, b0, a1, b1, a2, b2, a3, b3⟩ := block_index t
  exact scaled_block (V c main_arg0) (V c main_v7) (((cfg0.win 3).blk t).view.emb) (((cfg0.win 0).blk t).view.emb) (((cfg0.win 1).blk t).view.emb) (4000 * t.val)
    (fun y => by show win0_3.index t (0 : Fin 2) * 4000 + 1 * (y 0).val = _; omega) (fun y => by show win0_3.index t (1 : Fin 2) * 64 + 1 * (y 1).val = _; omega)
    (fun y => by show win0_0.index t (0 : Fin 2) * 4000 + 1 * (y 0).val = _; omega) (fun y => by show win0_0.index t (1 : Fin 2) * 64 + 1 * (y 1).val = _; omega)
    (fun y => by show win0_1.index t (0 : Fin 2) * 4000 + 1 * (y 0).val = _; omega)

/-- An index of the array is in point t's block iff each coordinate is in the block's range on its axis. -/
theorem mem_block3 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v8_1).slice (win0_3.rect t)).set ↔ _
  rw [View.set_slice_whole, Rect.mem_set_unit]
  exact Iff.rfl

/-- Row r is in the block of point r / 4000: the 25 blocks cover the array. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  have ht : (i 0).val / 4000 < cfg0.N := by rw [hN]; omega
  refine ⟨⟨(i 0).val / 4000, ht⟩, flush0_3 _, ?_⟩
  rw [mem_block3]
  obtain ⟨a0, b0, a1, b1, a2, b2, a3, b3⟩ := block_index ⟨(i 0).val / 4000, ht⟩
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [a3]; show (i 0).val / 4000 * 4000 ≤ (i 0).val ∧ (i 0).val < (i 0).val / 4000 * 4000 + 4000; omega
  | ⟨1, _⟩ =>
    show win0_3.index ⟨(i 0).val / 4000, ht⟩ (1 : Fin 2) * 64 ≤ (i 1).val
      ∧ (i 1).val < win0_3.index ⟨(i 0).val / 4000, ht⟩ (1 : Fin 2) * 64 + 64
    rw [b3]; omega

/-- The array when the region ends. -/
theorem final3 (c : Dev nD) :
    (dat0 V c).arrAt 3 cfg0.N = (scaled (F := Ideal) hostDims (V c main_arg0) (V c main_v7) : S100000x64.Idx → Elt Ideal .f32) :=
  (dat0 V c).arrAt_eq_of_cover 3 _ (fun t _ => flushed3_eq V c t) cover3

end Cert.KernelIdeal.Region0

end
-- ==== Proof.Region1.lean ====
/-
  Region 1 (one Laplacian step on a block of 4000 rows per grid point): what its output arrays hold when it ends,
  as functions of the arrays it is entered with. At point t every window's block is rows 4000·t … 4000·t + 3999 (the
  100000 × 1 column's block the same rows), the body's three stores are the step's three results on those rows, and
  the 25 blocks tile the 100000 rows; so each output array ends as the whole-array result: the new features f − a·d,
  the accumulated h + θ·(f − a·d), and the rescaled (f − a·d)·d.
-/
import proofs.«157465_j26542897889791_2_alg».proof.Proof.Gen.KernelIdeal.Frame
import proofs.«157465_j26542897889791_2_alg».proof.Proof.KernelDims
import proofs.«157465_j26542897889791_2_alg».proof.Proof.LibLaplacianStep
import Idealize.ShloMosaic.Lib.Pipeline.Value

set_option maxRecDepth 16384

noncomputable section

namespace Cert.KernelIdeal.Region1

open Cert.KernelIdeal Cert.KernelIdeal.Gen Cert.KernelIdeal.HostSide Cert.PolySpec Cert.LibLaplacianStep
open Idealize.ShloMosaic Idealize.ShloMosaic.TcCoe Idealize.SL.Sem
open Idealize.ShloMosaic.Pipeline (Dat)

/-! ## The body's three stores on a block of rows -/

section Blocks

variable (X A Hh : S100000x64.Idx → EReal) (D : S100000x1.Idx → EReal)
  (e e0 e1 e3 : S4000x64.Idx → S100000x64.Idx) (e2 : S4000x1.Idx → S100000x1.Idx) (o : Nat)
  (he0 : ∀ y, (e y 0).val = o + (y 0).val) (he1 : ∀ y, (e y 1).val = (y 1).val)
  (h00 : ∀ y, (e0 y 0).val = o + (y 0).val) (h01 : ∀ y, (e0 y 1).val = (y 1).val)
  (h10 : ∀ y, (e1 y 0).val = o + (y 0).val) (h11 : ∀ y, (e1 y 1).val = (y 1).val)
  (h30 : ∀ y, (e3 y 0).val = o + (y 0).val) (h31 : ∀ y, (e3 y 1).val = (y 1).val)
  (h20 : ∀ y, (e2 y 0).val = o + (y 0).val)

include he0 he1 h00 h01 h10 h11 h20 in
/-- The first store: the blocks' f − a·d is the block of the whole arrays' f − a·d. -/
theorem feat_block :
    k1_pay1 (F := Ideal) (fun y => X (e0 y)) (fun y => A (e1 y)) (fun y => D (e2 y))
      = fun y => featStep (F := Ideal) hostDims X A D (e y) := by
  show subf (F := Ideal) (s := S4000x64) (φ := .f32) (fun y => X (e0 y))
    (mulf (F := Ideal) (s := S4000x64) (φ := .f32) (shapeCast S4000x64 (fun y => A (e1 y)) _)
      (broadcastTo S4000x64 (shapeCast S4000x1 (fun y => D (e2 y)) _) _)) = _
  rw [vec_lapStep]
  unfold featStep stretch
  rw [host_lapStep]
  exact (lapStep_rows X A D e e0 e1 e2 o he0 he1 h00 h01 h10 h11 h20).symm

include he0 he1 h00 h01 h10 h11 h20 h30 h31 in
/-- The second store: the blocks' h + θ·(f − a·d). -/
theorem h_block :
    k1_pay2 (F := Ideal) (fun y => X (e0 y)) (fun y => A (e1 y)) (fun y => D (e2 y)) (fun y => Hh (e3 y))
      = fun y => hStep (F := Ideal) hostDims 0xBF4CCCCD#32 Hh (featStep (F := Ideal) hostDims X A D) (e y) := by
  show addf (F := Ideal) (s := S4000x64) (φ := .f32) (shapeCast S4000x64 (fun y => Hh (e3 y)) _)
    (mulf (F := Ideal) (s := S4000x64) (φ := .f32) (broadcast S4000x64 (Scalar.ofBits .f32 0xBF4CCCCD#32 : Ideal .f32))
      (k1_pay1 (F := Ideal) (fun y => X (e0 y)) (fun y => A (e1 y)) (fun y => D (e2 y)))) = _
  rw [feat_block X A D e e0 e1 e2 o he0 he1 h00 h01 h10 h11 h20, vec_axpy]
  unfold hStep coeff
  rw [host_axpy]
  exact (axpy_rows _ Hh (featStep (F := Ideal) hostDims X A D) e e3 o he0 he1 h30 h31).symm

include he0 he1 h00 h01 h10 h11 h20 in
/-- The third store: the blocks' (f − a·d)·d. -/
theorem scaled_block :
    k1_pay3 (F := Ideal) (fun y => X (e0 y)) (fun y => A (e1 y)) (fun y => D (e2 y)) (fun y => D (e2 y))
      = fun y => scaled (F := Ideal) hostDims (featStep (F := Ideal) hostDims X A D) D (e y) := by
  show mulf (F := Ideal) (s := S4000x64) (φ := .f32)
    (k1_pay1 (F := Ideal) (fun y => X (e0 y)) (fun y => A (e1 y)) (fun y => D (e2 y)))
    (broadcastTo S4000x64 (shapeCast S4000x1 (fun y => D (e2 y)) _) _) = _
  rw [feat_block X A D e e0 e1 e2 o he0 he1 h00 h01 h10 h11 h20, vec_rowScale]
  unfold scaled stretch
  rw [host_rowScale]
  exact (rowScale_rows (featStep (F := Ideal) hostDims X A D) D e e e2 o he0 he1 he0 he1 h20).symm

end Blocks

/-! ## The blocks, and the arrays when the region ends -/

variable (V : (c : Dev nD) → (b : Ref sig .tc) → Buf (Elt Ideal) ((c : Thread nD τ).loc b))

theorem origin : (![0, 0] : Fin 2 → Nat) = fun _ => 0 := funext fun a => by fin_cases a <;> rfl

/-- Every window's block index at point t is (t, 0), decided over the 25 points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ### Output window 4 -/

set_option backward.isDefEq.respectTransparency.types false in
/-- What point t writes back to the new features' array is block t of f − a·d. -/
theorem flushed4_eq (c : Dev nD) (t : Fin cfg1.N) :
    (dat1 V c).flushed 4 t = ((cfg1.win 4).blk t).view.read (Elt Ideal)
      (featStep (F := Ideal) hostDims (V c main_arg0) (V c main_v18) (V c main_v7) : S100000x64.Idx → Elt Ideal .f32) := by
  show (cfg1.win 4).cut (grid1.coords t) ((dat1 V c).after 4 t) = _
  rw [after1_4]; unfold out1_4
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact feat_block (V c main_arg0) (V c main_v18) (V c main_v7) (((cfg1.win 4).blk t).view.emb) (((cfg1.win 0).blk t).view.emb) (((cfg1.win 1).blk t).view.emb) (((cfg1.win 2).blk t).view.emb) (4000 * t.val)
    (fun y => by show win1_4.index t (0 : Fin 2) * 4000 + 1 * (y 0).val = _; omega) (fun y => by show win1_4.index t (1 : Fin 2) * 64 + 1 * (y 1).val = _; omega)
    (fun y => by show win1_0.index t (0 : Fin 2) * 4000 + 1 * (y 0).val = _; omega) (fun y => by show win1_0.index t (1 : Fin 2) * 64 + 1 * (y 1).val = _; omega)
    (fun y => by show win1_1.index t (0 : Fin 2) * 4000 + 1 * (y 0).val = _; omega) (fun y => by show win1_1.index t (1 : Fin 2) * 64 + 1 * (y 1).val = _; omega)
    (fun y => by show win1_2.index t (0 : Fin 2) * 4000 + 1 * (y 0).val = _; omega)

/-- An index of the array is in point t's block iff each coordinate is in the block's range on its axis. -/
theorem mem_block4 (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v19_0).slice (win1_4.rect t)).set ↔ _
  rw [View.set_slice_whole, Rect.mem_set_unit]
  exact Iff.rfl

/-- Row r is in the block of point r / 4000: the 25 blocks cover the array. -/
theorem cover4 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  have ht : (i 0).val / 4000 < cfg1.N := by rw [hN]; omega
  refine ⟨⟨(i 0).val / 4000, ht⟩, flush1_4 _, ?_⟩
  rw [mem_block4]
  obtain ⟨a0, b0, a1, b1, a2, b2, a3, b3, a4, b4, a5, b5, a6, b6⟩ := block_index ⟨(i 0).val / 4000, ht⟩
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    rw [a4]; show (i 0).val / 4000 * 4000 ≤ (i 0).val ∧ (i 0).val < (i 0).val / 4000 * 4000 + 4000; omega
  | ⟨1, _⟩ =>
    show win1_4.index ⟨(i 0).val / 4000, ht⟩ (1 : Fin 2) * 64 ≤ (i 1).val
      ∧ (i 1).val < win1_4.index ⟨(i 0).val / 4000, ht⟩ (1 : Fin 2) * 64 + 64
    rw [b4]; omega

/-- The array when the region ends. -/
theorem final4 (c : Dev nD) :
    (dat1 V c).arrAt 4 cfg1.N = (featStep (F := Ideal) hostDims (V c main_arg0) (V c main_v18) (V c main_v7) : S100000x64.Idx → Elt Ideal .f32) :=
  (dat1 V c).arrAt_eq_of_cover 4 _ (fun t _ => flushed4_eq V c t) cover4

/-! ### Output window 5 -/

set_option backward.isDefEq.respectTransparency.types false in
/-- What point t writes back to the accumulator's array is block t of h + θ·(f − a·d). -/
theorem flushed5_eq (c : Dev nD) (t : Fin cfg1.N) :
    (dat1 V c).flushed 5 t = ((cfg1.win 5).blk t).view.read (Elt Ideal)
      (hStep (F := Ideal) hostDims 0xBF4CCCCD#32 (V c main_v8_0) (featStep (F := Ideal) hostDims (V c main_arg0) (V c main_v18) (V c main_v7)) : S100000x64.Idx → Elt Ideal .f32) := by
  show (cfg1.win 5).cut (grid1.coords t) ((dat1 V c).after 5 t) = _
  rw [after1_5]; unfold out1_5
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact h_block (V c main_arg0) (V c main_v18) (V c main_v8_0) (V c main_v7) (((cfg1.win 5).blk t).view.emb) (((cfg1.win 0).blk t).view.emb) (((cfg1.win 1).blk t).view.emb) (((cfg1.win 3).blk t).view.emb) (((cfg1.win 2).blk t).view.emb) (4000 * t.val)
    (fun y => by show win1_5.index t (0 : Fin 2) * 4000 + 1 * (y 0).val = _; omega) (fun y => by show win1_5.index t (1 : Fin 2) * 64 + 1 * (y 1).val = _; omega)
    (fun y => by show win1_0.index t (0 : Fin 2) * 4000 + 1 * (y 0).val = _; omega) (fun y => by show win1_0.index t (1 : Fin 2) * 64 + 1 * (y 1).val = _; omega)
    (fun y => by show win1_1.index t (0 : Fin 2) * 4000 + 1 * (y 0).val = _; omega) (fun y => by show win1_1.index t (1 : Fin 2) * 64 + 1 * (y 1).val = _; omega)
    (fun y => by show win1_3.index t (0 : Fin 2) * 4000 + 1 * (y 0).val = _; omega) (fun y => by show win1_3.index t (1 : Fin 2) * 64 + 1 * (y 1).val = _; omega)
    (fun y => by show win1_2.index t (0 : Fin 2) * 4000 + 1 * (y 0).val = _; omega)

/-- An index of the array is in point t's block iff each coordinate is in the block's range on its axis. -/
theorem mem_block5 (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v19_1).slice (win1_5.rect t)).set ↔ _
  rw [View.set_slice_whole, Rect.mem_set_unit]
  exact Iff.rfl

/-- Row r is in the block of point r / 4000: the 25 blocks cover the array. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  have ht : (i 0).val / 4000 < cfg1.N := by rw [hN]; omega
  refine ⟨⟨(i 0).val / 4000, ht⟩, flush1_5 _, ?_⟩
  rw [mem_block5]
  obtain ⟨a0, b0, a1, b1, a2, b2, a3, b3, a4, b4, a5, b5, a6, b6⟩ := block_index ⟨(i 0).val / 4000, ht⟩
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [a5]; show (i 0).val / 4000 * 4000 ≤ (i 0).val ∧ (i 0).val < (i 0).val / 4000 * 4000 + 4000; omega
  | ⟨1, _⟩ =>
    show win1_5.index ⟨(i 0).val / 4000, ht⟩ (1 : Fin 2) * 64 ≤ (i 1).val
      ∧ (i 1).val < win1_5.index ⟨(i 0).val / 4000, ht⟩ (1 : Fin 2) * 64 + 64
    rw [b5]; omega

/-- The array when the region ends. -/
theorem final5 (c : Dev nD) :
    (dat1 V c).arrAt 5 cfg1.N = (hStep (F := Ideal) hostDims 0xBF4CCCCD#32 (V c main_v8_0) (featStep (F := Ideal) hostDims (V c main_arg0) (V c main_v18) (V c main_v7)) : S100000x64.Idx → Elt Ideal .f32) :=
  (dat1 V c).arrAt_eq_of_cover 5 _ (fun t _ => flushed5_eq V c t) cover5

/-! ### Output window 6 -/

set_option backward.isDefEq.respectTransparency.types false in
/-- What point t writes back to the rescaled features' array is block t of (f − a·d)·d. -/
theorem flushed6_eq (c : Dev nD) (t : Fin cfg1.N) :
    (dat1 V c).flushed 6 t = ((cfg1.win 6).blk t).view.read (Elt Ideal)
      (scaled (F := Ideal) hostDims (featStep (F := Ideal) hostDims (V c main_arg0) (V c main_v18) (V c main_v7)) (V c main_v7) : S100000x64.Idx → Elt Ideal .f32) := by
  show (cfg1.win 6).cut (grid1.coords t) ((dat1 V c).after 6 t) = _
  rw [after1_6]; unfold out1_6
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact scaled_block (V c main_arg0) (V c main_v18) (V c main_v7) (((cfg1.win 6).blk t).view.emb) (((cfg1.win 0).blk t).view.emb) (((cfg1.win 1).blk t).view.emb) (((cfg1.win 2).blk t).view.emb) (4000 * t.val)
    (fun y => by show win1_6.index t (0 : Fin 2) * 4000 + 1 * (y 0).val = _; omega) (fun y => by show win1_6.index t (1 : Fin 2) * 64 + 1 * (y 1).val = _; omega)
    (fun y => by show win1_0.index t (0 : Fin 2) * 4000 + 1 * (y 0).val = _; omega) (fun y => by show win1_0.index t (1 : Fin 2) * 64 + 1 * (y 1).val = _; omega)
    (fun y => by show win1_1.index t (0 : Fin 2) * 4000 + 1 * (y 0).val = _; omega) (fun y => by show win1_1.index t (1 : Fin 2) * 64 + 1 * (y 1).val = _; omega)
    (fun y => by show win1_2.index t (0 : Fin 2) * 4000 + 1 * (y 0).val = _; omega)

/-- An index of the array is in point t's block iff each coordinate is in the block's range on its axis. -/
theorem mem_block6 (t : Fin cfg1.N) (i : S100000x64.Idx) :
    i ∈ ((cfg1.win 6).blk t).view.set ↔ ∀ a : Fin 2, win1_6.index t a * S4000x64.size a ≤ (i a).val
      ∧ (i a).val < win1_6.index t a * S4000x64.size a + S4000x64.size a := by
  show i ∈ ((View.whole main_v19_2).slice (win1_6.rect t)).set ↔ _
  rw [View.set_slice_whole, Rect.mem_set_unit]
  exact Iff.rfl

/-- Row r is in the block of point r / 4000: the 25 blocks cover the array. -/
theorem cover6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  have ht : (i 0).val / 4000 < cfg1.N := by rw [hN]; omega
  refine ⟨⟨(i 0).val / 4000, ht⟩, flush1_6 _, ?_⟩
  rw [mem_block6]
  obtain ⟨a0, b0, a1, b1, a2, b2, a3, b3, a4, b4, a5, b5, a6, b6⟩ := block_index ⟨(i 0).val / 4000, ht⟩
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [a6]; show (i 0).val / 4000 * 4000 ≤ (i 0).val ∧ (i 0).val < (i 0).val / 4000 * 4000 + 4000; omega
  | ⟨1, _⟩ =>
    show win1_6.index ⟨(i 0).val / 4000, ht⟩ (1 : Fin 2) * 64 ≤ (i 1).val
      ∧ (i 1).val < win1_6.index ⟨(i 0).val / 4000, ht⟩ (1 : Fin 2) * 64 + 64
    rw [b6]; omega

/-- The array when the region ends. -/
theorem final6 (c : Dev nD) :
    (dat1 V c).arrAt 6 cfg1.N = (scaled (F := Ideal) hostDims (featStep (F := Ideal) hostDims (V c main_arg0) (V c main_v18) (V c main_v7)) (V c main_v7) : S100000x64.Idx → Elt Ideal .f32) :=
  (dat1 V c).arrAt_eq_of_cover 6 _ (fun t _ => flushed6_eq V c t) cover6

end Cert.KernelIdeal.Region1

end
-- ==== Proof.Region2.lean ====
/-
  Region 2 (one Laplacian step on a block of 4000 rows per grid point): what its output arrays hold when it ends,
  as functions of the arrays it is entered with. At point t every window's block is rows 4000·t … 4000·t + 3999 (the
  100000 × 1 column's block the same rows), the body's three stores are the step's three results on those rows, and
  the 25 blocks tile the 100000 rows; so each output array ends as the whole-array result: the new features f − a·d,
  the accumulated h + θ·(f − a·d), and the rescaled (f − a·d)·d.
-/
import proofs.«157465_j26542897889791_2_alg».proof.Proof.Gen.KernelIdeal.Frame
import proofs.«157465_j26542897889791_2_alg».proof.Proof.KernelDims
import proofs.«157465_j26542897889791_2_alg».proof.Proof.LibLaplacianStep
import Idealize.ShloMosaic.Lib.Pipeline.Value

set_option maxRecDepth 16384

noncomputable section

namespace Cert.KernelIdeal.Region2

open Cert.KernelIdeal Cert.KernelIdeal.Gen Cert.KernelIdeal.HostSide Cert.PolySpec Cert.LibLaplacianStep
open Idealize.ShloMosaic Idealize.ShloMosaic.TcCoe Idealize.SL.Sem
open Idealize.ShloMosaic.Pipeline (Dat)

/-! ## The body's three stores on a block of rows -/

section Blocks

variable (X A Hh : S100000x64.Idx → EReal) (D : S100000x1.Idx → EReal)
  (e e0 e1 e3 : S4000x64.Idx → S100000x64.Idx) (e2 : S4000x1.Idx → S100000x1.Idx) (o : Nat)
  (he0 : ∀ y, (e y 0).val = o + (y 0).val) (he1 : ∀ y, (e y 1).val = (y 1).val)
  (h00 : ∀ y, (e0 y 0).val = o + (y 0).val) (h01 : ∀ y, (e0 y 1).val = (y 1).val)
  (h10 : ∀ y, (e1 y 0).val = o + (y 0).val) (h11 : ∀ y, (e1 y 1).val = (y 1).val)
  (h30 : ∀ y, (e3 y 0).val = o + (y 0).val) (h31 : ∀ y, (e3 y 1).val = (y 1).val)
  (h20 : ∀ y, (e2 y 0).val = o + (y 0).val)

include he0 he1 h00 h01 h10 h11 h20 in
/-- The first store: the blocks' f − a·d is the block of the whole arrays' f − a·d. -/
theorem feat_block :
    k2_pay1 (F := Ideal) (fun y => X (e0 y)) (fun y => A (e1 y)) (fun y => D (e2 y))
      = fun y => featStep (F := Ideal) hostDims X A D (e y) := by
  show subf (F := Ideal) (s := S4000x64) (φ := .f32) (shapeCast S4000x64 (fun y => X (e0 y)) _)
    (mulf (F := Ideal) (s := S4000x64) (φ := .f32) (shapeCast S4000x64 (fun y => A (e1 y)) _)
      (broadcastTo S4000x64 (shapeCast S4000x1 (fun y => D (e2 y)) _) _)) = _
  rw [vec_lapStep_cast]
  unfold featStep stretch
  rw [host_lapStep]
  exact (lapStep_rows X A D e e0 e1 e2 o he0 he1 h00 h01 h10 h11 h20).symm

include he0 he1 h00 h01 h10 h11 h20 h30 h31 in
/-- The second store: the blocks' h + θ·(f − a·d). -/
theorem h_block :
    k2_pay2 (F := Ideal) (fun y => X (e0 y)) (fun y => A (e1 y)) (fun y => D (e2 y)) (fun y => Hh (e3 y))
      = fun y => hStep (F := Ideal) hostDims 0x3ECCCCCD#32 Hh (featStep (F := Ideal) hostDims X A D) (e y) := by
  show addf (F := Ideal) (s := S4000x64) (φ := .f32) (shapeCast S4000x64 (fun y => Hh (e3 y)) _)
    (mulf (F := Ideal) (s := S4000x64) (φ := .f32) (broadcast S4000x64 (Scalar.ofBits .f32 0x3ECCCCCD#32 : Ideal .f32))
      (k2_pay1 (F := Ideal) (fun y => X (e0 y)) (fun y => A (e1 y)) (fun y => D (e2 y)))) = _
  rw [feat_block X A D e e0 e1 e2 o he0 he1 h00 h01 h10 h11 h20, vec_axpy]
  unfold hStep coeff
  rw [host_axpy]
  exact (axpy_rows _ Hh (featStep (F := Ideal) hostDims X A D) e e3 o he0 he1 h30 h31).symm

include he0 he1 h00 h01 h10 h11 h20 in
/-- The third store: the blocks' (f − a·d)·d. -/
theorem scaled_block :
    k2_pay3 (F := Ideal) (fun y => X (e0 y)) (fun y => A (e1 y)) (fun y => D (e2 y)) (fun y => D (e2 y))
      = fun y => scaled (F := Ideal) hostDims (featStep (F := Ideal) hostDims X A D) D (e y) := by
  show mulf (F := Ideal) (s := S4000x64) (φ := .f32)
    (k2_pay1 (F := Ideal) (fun y => X (e0 y)) (fun y => A (e1 y)) (fun y => D (e2 y)))
    (broadcastTo S4000x64 (shapeCast S4000x1 (fun y => D (e2 y)) _) _) = _
  rw [feat_block X A D e e0 e1 e2 o he0 he1 h00 h01 h10 h11 h20, vec_rowScale]
  unfold scaled stretch
  rw [host_rowScale]
  exact (rowScale_rows (featStep (F := Ideal) hostDims X A D) D e e e2 o he0 he1 he0 he1 h20).symm

end Blocks

/-! ## The blocks, and the arrays when the region ends -/

variable (V : (c : Dev nD) → (b : Ref sig .tc) → Buf (Elt Ideal) ((c : Thread nD τ).loc b))

theorem origin : (![0, 0] : Fin 2 → Nat) = fun _ => 0 := funext fun a => by fin_cases a <;> rfl

/-- Every window's block index at point t is (t, 0), decided over the 25 points. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ### Output window 4 -/

set_option backward.isDefEq.respectTransparency.types false in
/-- What point t writes back to the new features' array is block t of f − a·d. -/
theorem flushed4_eq (c : Dev nD) (t : Fin cfg2.N) :
    (dat2 V c).flushed 4 t = ((cfg2.win 4).blk t).view.read (Elt Ideal)
      (featStep (F := Ideal) hostDims (V c main_v19_0) (V c main_v29) (V c main_v7) : S100000x64.Idx → Elt Ideal .f32) := by
  show (cfg2.win 4).cut (grid2.coords t) ((dat2 V c).after 4 t) = _
  rw [after2_4]; unfold out2_4
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact feat_block (V c main_v19_0) (V c main_v29) (V c main_v7) (((cfg2.win 4).blk t).view.emb) (((cfg2.win 0).blk t).view.emb) (((cfg2.win 1).blk t).view.emb) (((cfg2.win 2).blk t).view.emb) (4000 * t.val)
    (fun y => by show win2_4.index t (0 : Fin 2) * 4000 + 1 * (y 0).val = _; omega) (fun y => by show win2_4.index t (1 : Fin 2) * 64 + 1 * (y 1).val = _; omega)
    (fun y => by show win2_0.index t (0 : Fin 2) * 4000 + 1 * (y 0).val = _; omega) (fun y => by show win2_0.index t (1 : Fin 2) * 64 + 1 * (y 1).val = _; omega)
    (fun y => by show win2_1.index t (0 : Fin 2) * 4000 + 1 * (y 0).val = _; omega) (fun y => by show win2_1.index t (1 : Fin 2) * 64 + 1 * (y 1).val = _; omega)
    (fun y => by show win2_2.index t (0 : Fin 2) * 4000 + 1 * (y 0).val = _; omega)

/-- An index of the array is in point t's block iff each coordinate is in the block's range on its axis. -/
theorem mem_block4 (t : Fin cfg2.N) (i : S100000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v30_0).slice (win2_4.rect t)).set ↔ _
  rw [View.set_slice_whole, Rect.mem_set_unit]
  exact Iff.rfl

/-- Row r is in the block of point r / 4000: the 25 blocks cover the array. -/
theorem cover4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  have ht : (i 0).val / 4000 < cfg2.N := by rw [hN]; omega
  refine ⟨⟨(i 0).val / 4000, ht⟩, flush2_4 _, ?_⟩
  rw [mem_block4]
  obtain ⟨a0, b0, a1, b1, a2, b2, a3, b3, a4, b4, a5, b5, a6, b6⟩ := block_index ⟨(i 0).val / 4000, ht⟩
  intro a
  match a with
  | ⟨0, _⟩ =>
    show win2_4.index ⟨(i 0).val / 4000, ht⟩ (0 : Fin 2) * 4000 ≤ (i 0).val
      ∧ (i 0).val < win2_4.index ⟨(i 0).val / 4000, ht⟩ (0 : Fin 2) * 4000 + 4000
    rw [a4]; show (i 0).val / 4000 * 4000 ≤ (i 0).val ∧ (i 0).val < (i 0).val / 4000 * 4000 + 4000; omega
  | ⟨1, _⟩ =>
    show win2_4.index ⟨(i 0).val / 4000, ht⟩ (1 : Fin 2) * 64 ≤ (i 1).val
      ∧ (i 1).val < win2_4.index ⟨(i 0).val / 4000, ht⟩ (1 : Fin 2) * 64 + 64
    rw [b4]; omega

/-- The array when the region ends. -/
theorem final4 (c : Dev nD) :
    (dat2 V c).arrAt 4 cfg2.N = (featStep (F := Ideal) hostDims (V c main_v19_0) (V c main_v29) (V c main_v7) : S100000x64.Idx → Elt Ideal .f32) :=
  (dat2 V c).arrAt_eq_of_cover 4 _ (fun t _ => flushed4_eq V c t) cover4

/-! ### Output window 5 -/

set_option backward.isDefEq.respectTransparency.types false in
/-- What point t writes back to the accumulator's array is block t of h + θ·(f − a·d). -/
theorem flushed5_eq (c : Dev nD) (t : Fin cfg2.N) :
    (dat2 V c).flushed 5 t = ((cfg2.win 5).blk t).view.read (Elt Ideal)
      (hStep (F := Ideal) hostDims 0x3ECCCCCD#32 (V c main_v19_1) (featStep (F := Ideal) hostDims (V c main_v19_0) (V c main_v29) (V c main_v7)) : S100000x64.Idx → Elt Ideal .f32) := by
  show (cfg2.win 5).cut (grid2.coords t) ((dat2 V c).after 5 t) = _
  rw [after2_5]; unfold out2_5
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact h_block (V c main_v19_0) (V c main_v29) (V c main_v19_1) (V c main_v7) (((cfg2.win 5).blk t).view.emb) (((cfg2.win 0).blk t).view.emb) (((cfg2.win 1).blk t).view.emb) (((cfg2.win 3).blk t).view.emb) (((cfg2.win 2).blk t).view.emb) (4000 * t.val)
    (fun y => by show win2_5.index t (0 : Fin 2) * 4000 + 1 * (y 0).val = _; omega) (fun y => by show win2_5.index t (1 : Fin 2) * 64 + 1 * (y 1).val = _; omega)
    (fun y => by show win2_0.index t (0 : Fin 2) * 4000 + 1 * (y 0).val = _; omega) (fun y => by show win2_0.index t (1 : Fin 2) * 64 + 1 * (y 1).val = _; omega)
    (fun y => by show win2_1.index t (0 : Fin 2) * 4000 + 1 * (y 0).val = _; omega) (fun y => by show win2_1.index t (1 : Fin 2) * 64 + 1 * (y 1).val = _; omega)
    (fun y => by show win2_3.index t (0 : Fin 2) * 4000 + 1 * (y 0).val = _; omega) (fun y => by show win2_3.index t (1 : Fin 2) * 64 + 1 * (y 1).val = _; omega)
    (fun y => by show win2_2.index t (0 : Fin 2) * 4000 + 1 * (y 0).val = _; omega)

/-- An index of the array is in point t's block iff each coordinate is in the block's range on its axis. -/
theorem mem_block5 (t : Fin cfg2.N) (i : S100000x64.Idx) :
    i ∈ ((cfg2.win 5).blk t).view.set ↔ ∀ a : Fin 2, win2_5.index t a * S4000x64.size a ≤ (i a).val
      ∧ (i a).val < win2_5.index t a * S4000x64.size a + S4000x64.size a := by
  show i ∈ ((View.whole main_v30_1).slice (win2_5.rect t)).set ↔ _
  rw [View.set_slice_whole, Rect.mem_set_unit]
  exact Iff.rfl

/-- Row r is in the block of point r / 4000: the 25 blocks cover the array. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 25 := N_2
  have ht : (i 0).val / 4000 < cfg2.N := by rw [hN]; omega
  refine ⟨⟨(i 0).val / 4000, ht⟩, flush2_5 _, ?_⟩
  rw [mem_block5]
  obtain ⟨a0, b0, a1, b1, a2, b2, a3, b3, a4, b4, a5, b5, a6, b6⟩ := block_index ⟨(i 0).val / 4000, ht⟩
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [a5]; show (i 0).val / 4000 * 4000 ≤ (i 0).val ∧ (i 0).val < (i 0).val / 4000 * 4000 + 4000; omega
  | ⟨1, _⟩ =>
    show win2_5.index ⟨(i 0).val / 4000, ht⟩ (1 : Fin 2) * 64 ≤ (i 1).val
      ∧ (i 1).val < win2_5.index ⟨(i 0).val / 4000, ht⟩ (1 : Fin 2) * 64 + 64
    rw [b5]; omega

/-- The array when the region ends. -/
theorem final5 (c : Dev nD) :
    (dat2 V c).arrAt 5 cfg2.N = (hStep (F := Ideal) hostDims 0x3ECCCCCD#32 (V c main_v19_1) (featStep (F := Ideal) hostDims (V c main_v19_0) (V c main_v29) (V c main_v7)) : S100000x64.Idx → Elt Ideal .f32) :=
  (dat2 V c).arrAt_eq_of_cover 5 _ (fun t _ => flushed5_eq V c t) cover5

/-! ### Output window 6 -/

set_option backward.isDefEq.respectTransparency.types false in
/-- What point t writes back to the rescaled features' array is block t of (f − a·d)·d. -/
theorem flushed6_eq (c : Dev nD) (t : Fin cfg2.N) :
    (dat2 V c).flushed 6 t = ((cfg2.win 6).blk t).view.read (Elt Ideal)
      (scaled (F := Ideal) hostDims (featStep (F := Ideal) hostDims (V c main_v19_0) (V c main_v29) (V c main_v7)) (V c main_v7) : S100000x64.Idx → Elt Ideal .f32) := by
  show (cfg2.win 6).cut (grid2.coords t) ((dat2 V c).after 6 t) = _
  rw [after2_6]; unfold out2_6
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact scaled_block (V c main_v19_0) (V c main_v29) (V c main_v7) (((cfg2.win 6).blk t).view.emb) (((cfg2.win 0).blk t).view.emb) (((cfg2.win 1).blk t).view.emb) (((cfg2.win 2).blk t).view.emb) (4000 * t.val)
    (fun y => by show win2_6.index t (0 : Fin 2) * 4000 + 1 * (y 0).val = _; omega) (fun y => by show win2_6.index t (1 : Fin 2) * 64 + 1 * (y 1).val = _; omega)
    (fun y => by show win2_0.index t (0 : Fin 2) * 4000 + 1 * (y 0).val = _; omega) (fun y => by show win2_0.index t (1 : Fin 2) * 64 + 1 * (y 1).val = _; omega)
    (fun y => by show win2_1.index t (0 : Fin 2) * 4000 + 1 * (y 0).val = _; omega) (fun y => by show win2_1.index t (1 : Fin 2) * 64 + 1 * (y 1).val = _; omega)
    (fun y => by show win2_2.index t (0 : Fin 2) * 4000 + 1 * (y 0).val = _; omega)

/-- An index of the array is in point t's block iff each coordinate is in the block's range on its axis. -/
theorem mem_block6 (t : Fin cfg2.N) (i : S100000x64.Idx) :
    i ∈ ((cfg2.win 6).blk t).view.set ↔ ∀ a : Fin 2, win2_6.index t a * S4000x64.size a ≤ (i a).val
      ∧ (i a).val < win2_6.index t a * S4000x64.size a + S4000x64.size a := by
  show i ∈ ((View.whole main_v30_2).slice (win2_6.rect t)).set ↔ _
  rw [View.set_slice_whole, Rect.mem_set_unit]
  exact Iff.rfl

/-- Row r is in the block of point r / 4000: the 25 blocks cover the array. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 25 := N_2
  have ht : (i 0).val / 4000 < cfg2.N := by rw [hN]; omega
  refine ⟨⟨(i 0).val / 4000, ht⟩, flush2_6 _, ?_⟩
  rw [mem_block6]
  obtain ⟨a0, b0, a1, b1, a2, b2, a3, b3, a4, b4, a5, b5, a6, b6⟩ := block_index ⟨(i 0).val / 4000, ht⟩
  intro a
  match a with
  | ⟨0, _⟩ =>
    show win2_6.index ⟨(i 0).val / 4000, ht⟩ (0 : Fin 2) * 4000 ≤ (i 0).val
      ∧ (i 0).val < win2_6.index ⟨(i 0).val / 4000, ht⟩ (0 : Fin 2) * 4000 + 4000
    rw [a6]; show (i 0).val / 4000 * 4000 ≤ (i 0).val ∧ (i 0).val < (i 0).val / 4000 * 4000 + 4000; omega
  | ⟨1, _⟩ =>
    show win2_6.index ⟨(i 0).val / 4000, ht⟩ (1 : Fin 2) * 64 ≤ (i 1).val
      ∧ (i 1).val < win2_6.index ⟨(i 0).val / 4000, ht⟩ (1 : Fin 2) * 64 + 64
    rw [b6]; omega

/-- The array when the region ends. -/
theorem final6 (c : Dev nD) :
    (dat2 V c).arrAt 6 cfg2.N = (scaled (F := Ideal) hostDims (featStep (F := Ideal) hostDims (V c main_v19_0) (V c main_v29) (V c main_v7)) (V c main_v7) : S100000x64.Idx → Elt Ideal .f32) :=
  (dat2 V c).arrAt_eq_of_cover 6 _ (fun t _ => flushed6_eq V c t) cover6

end Cert.KernelIdeal.Region2

end
-- ==== Proof.Region3.lean ====
/-
  Region 3 (one Laplacian step on a block of 4000 rows per grid point): what its output arrays hold when it ends,
  as functions of the arrays it is entered with. At point t every window's block is rows 4000·t … 4000·t + 3999 (the
  100000 × 1 column's block the same rows), the body's three stores are the step's three results on those rows, and
  the 25 blocks tile the 100000 rows; so each output array ends as the whole-array result: the new features f − a·d,
  the accumulated h + θ·(f − a·d), and the rescaled (f − a·d)·d.
-/
import proofs.«157465_j26542897889791_2_alg».proof.Proof.Gen.KernelIdeal.Frame
import proofs.«157465_j26542897889791_2_alg».proof.Proof.KernelDims
import proofs.«157465_j26542897889791_2_alg».proof.Proof.LibLaplacianStep
import Idealize.ShloMosaic.Lib.Pipeline.Value

set_option maxRecDepth 16384

noncomputable section

namespace Cert.KernelIdeal.Region3

open Cert.KernelIdeal Cert.KernelIdeal.Gen Cert.KernelIdeal.HostSide Cert.PolySpec Cert.LibLaplacianStep
open Idealize.ShloMosaic Idealize.ShloMosaic.TcCoe Idealize.SL.Sem
open Idealize.ShloMosaic.Pipeline (Dat)

/-! ## The body's three stores on a block of rows -/

section Blocks

variable (X A Hh : S100000x64.Idx → EReal) (D : S100000x1.Idx → EReal)
  (e e0 e1 e3 : S4000x64.Idx → S100000x64.Idx) (e2 : S4000x1.Idx → S100000x1.Idx) (o : Nat)
  (he0 : ∀ y, (e y 0).val = o + (y 0).val) (he1 : ∀ y, (e y 1).val = (y 1).val)
  (h00 : ∀ y, (e0 y 0).val = o + (y 0).val) (h01 : ∀ y, (e0 y 1).val = (y 1).val)
  (h10 : ∀ y, (e1 y 0).val = o + (y 0).val) (h11 : ∀ y, (e1 y 1).val = (y 1).val)
  (h30 : ∀ y, (e3 y 0).val = o + (y 0).val) (h31 : ∀ y, (e3 y 1).val = (y 1).val)
  (h20 : ∀ y, (e2 y 0).val = o + (y 0).val)

include he0 he1 h00 h01 h10 h11 h20 in
/-- The first store: the blocks' f − a·d is the block of the whole arrays' f − a·d. -/
theorem feat_block :
    k3_pay1 (F := Ideal) (fun y => X (e0 y)) (fun y => A (e1 y)) (fun y => D (e2 y))
      = fun y => featStep (F := Ideal) hostDims X A D (e y) := by
  show subf (F := Ideal) (s := S4000x64) (φ := .f32) (shapeCast S4000x64 (fun y => X (e0 y)) _)
    (mulf (F := Ideal) (s := S4000x64) (φ := .f32) (shapeCast S4000x64 (fun y => A (e1 y)) _)
      (broadcastTo S4000x64 (shapeCast S4000x1 (fun y => D (e2 y)) _) _)) = _
  rw [vec_lapStep_cast]
  unfold featStep stretch
  rw [host_lapStep]
  exact (lapStep_rows X A D e e0 e1 e2 o he0 he1 h00 h01 h10 h11 h20).symm

include he0 he1 h00 h01 h10 h11 h20 h30 h31 in
/-- The second store: the blocks' h + θ·(f − a·d). -/
theorem h_block :
    k3_pay2 (F := Ideal) (fun y => X (e0 y)) (fun y => A (e1 y)) (fun y => D (e2 y)) (fun y => Hh (e3 y))
      = fun y => hStep (F := Ideal) hostDims 0xBDCCCCCD#32 Hh (featStep (F := Ideal) hostDims X A D) (e y) := by
  show addf (F := Ideal) (s := S4000x64) (φ := .f32) (shapeCast S4000x64 (fun y => Hh (e3 y)) _)
    (mulf (F := Ideal) (s := S4000x64) (φ := .f32) (broadcast S4000x64 (Scalar.ofBits .f32 0xBDCCCCCD#32 : Ideal .f32))
      (k3_pay1 (F := Ideal) (fun y => X (e0 y)) (fun y => A (e1 y)) (fun y => D (e2 y)))) = _
  rw [feat_block X A D e e0 e1 e2 o he0 he1 h00 h01 h10 h11 h20, vec_axpy]
  unfold hStep coeff
  rw [host_axpy]
  exact (axpy_rows _ Hh (featStep (F := Ideal) hostDims X A D) e e3 o he0 he1 h30 h31).symm

include he0 he1 h00 h01 h10 h11 h20 in
/-- The third store: the blocks' (f − a·d)·d. -/
theorem scaled_block :
    k3_pay3 (F := Ideal) (fun y => X (e0 y)) (fun y => A (e1 y)) (fun y => D (e2 y)) (fun y => D (e2 y))
      = fun y => scaled (F := Ideal) hostDims (featStep (F := Ideal) hostDims X A D) D (e y) := by
  show mulf (F := Ideal) (s := S4000x64) (φ := .f32)
    (k3_pay1 (F := Ideal) (fun y => X (e0 y)) (fun y => A (e1 y)) (fun y => D (e2 y)))
    (broadcastTo S4000x64 (shapeCast S4000x1 (fun y => D (e2 y)) _) _) = _
  rw [feat_block X A D e e0 e1 e2 o he0 he1 h00 h01 h10 h11 h20, vec_rowScale]
  unfold scaled stretch
  rw [host_rowScale]
  exact (rowScale_rows (featStep (F := Ideal) hostDims X A D) D e e e2 o he0 he1 he0 he1 h20).symm

end Blocks

/-! ## The blocks, and the arrays when the region ends -/

variable (V : (c : Dev nD) → (b : Ref sig .tc) → Buf (Elt Ideal) ((c : Thread nD τ).loc b))

theorem origin : (![0, 0] : Fin 2 → Nat) = fun _ => 0 := funext fun a => by fin_cases a <;> rfl

/-- Every window's block index at point t is (t, 0), decided over the 25 points. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-! ### Output window 5 -/

set_option backward.isDefEq.respectTransparency.types false in
/-- What point t writes back to the accumulator's array is block t of h + θ·(f − a·d). -/
theorem flushed5_eq (c : Dev nD) (t : Fin cfg3.N) :
    (dat3 V c).flushed 5 t = ((cfg3.win 5).blk t).view.read (Elt Ideal)
      (hStep (F := Ideal) hostDims 0xBDCCCCCD#32 (V c main_v30_1) (featStep (F := Ideal) hostDims (V c main_v30_0) (V c main_v40) (V c main_v7)) : S100000x64.Idx → Elt Ideal .f32) := by
  show (cfg3.win 5).cut (grid3.coords t) ((dat3 V c).after 5 t) = _
  rw [after3_5]; unfold out3_5
  rw [View.canon_unit_zero origin]
  simp only [View.ld_unit_zero (S := S4000x64) origin, View.ld_unit_zero (S := S4000x1) origin]
  obtain ⟨a0, b0, a1, b1, a2, b2, a3, b3, a4, b4, a5, b5, a6, b6⟩ := block_index t
  exact h_block (V c main_v30_0) (V c main_v40) (V c main_v30_1) (V c main_v7) (((cfg3.win 5).blk t).view.emb) (((cfg3.win 0).blk t).view.emb) (((cfg3.win 1).blk t).view.emb) (((cfg3.win 3).blk t).view.emb) (((cfg3.win 2).blk t).view.emb) (4000 * t.val)
    (fun y => by show win3_5.index t (0 : Fin 2) * 4000 + 1 * (y 0).val = _; omega) (fun y => by show win3_5.index t (1 : Fin 2) * 64 + 1 * (y 1).val = _; omega)
    (fun y => by show win3_0.index t (0 : Fin 2) * 4000 + 1 * (y 0).val = _; omega) (fun y => by show win3_0.index t (1 : Fin 2) * 64 + 1 * (y 1).val = _; omega)
    (fun y => by show win3_1.index t (0 : Fin 2) * 4000 + 1 * (y 0).val = _; omega) (fun y => by show win3_1.index t (1 : Fin 2) * 64 + 1 * (y 1).val = _; omega)
    (fun y => by show win3_3.index t (0 : Fin 2) * 4000 + 1 * (y 0).val = _; omega) (fun y => by show win3_3.index t (1 : Fin 2) * 64 + 1 * (y 1).val = _; omega)
    (fun y => by show win3_2.index t (0 : Fin 2) * 4000 + 1 * (y 0).val = _; omega)

/-- An index of the array is in point t's block iff each coordinate is in the block's range on its axis. -/
theorem mem_block5 (t : Fin cfg3.N) (i : S100000x64.Idx) :
    i ∈ ((cfg3.win 5).blk t).view.set ↔ ∀ a : Fin 2, win3_5.index t a * S4000x64.size a ≤ (i a).val
      ∧ (i a).val < win3_5.index t a * S4000x64.size a + S4000x64.size a := by
  show i ∈ ((View.whole main_v41_1).slice (win3_5.rect t)).set ↔ _
  rw [View.set_slice_whole, Rect.mem_set_unit]
  exact Iff.rfl

/-- Row r is in the block of point r / 4000: the 25 blocks cover the array. -/
theorem cover5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 25 := N_3
  have ht : (i 0).val / 4000 < cfg3.N := by rw [hN]; omega
  refine ⟨⟨(i 0).val / 4000, ht⟩, flush3_5 _, ?_⟩
  rw [mem_block5]
  obtain ⟨a0, b0, a1, b1, a2, b2, a3, b3, a4, b4, a5, b5, a6, b6⟩ := block_index ⟨(i 0).val / 4000, ht⟩
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [a5]; show (i 0).val / 4000 * 4000 ≤ (i 0).val ∧ (i 0).val < (i 0).val / 4000 * 4000 + 4000; omega
  | ⟨1, _⟩ =>
    show win3_5.index ⟨(i 0).val / 4000, ht⟩ (1 : Fin 2) * 64 ≤ (i 1).val
      ∧ (i 1).val < win3_5.index ⟨(i 0).val / 4000, ht⟩ (1 : Fin 2) * 64 + 64
    rw [b5]; omega

/-- The array when the region ends. -/
theorem final5 (c : Dev nD) :
    (dat3 V c).arrAt 5 cfg3.N = (hStep (F := Ideal) hostDims 0xBDCCCCCD#32 (V c main_v30_1) (featStep (F := Ideal) hostDims (V c main_v30_0) (V c main_v40) (V c main_v7)) : S100000x64.Idx → Elt Ideal .f32) :=
  (dat3 V c).arrAt_eq_of_cover 5 _ (fun t _ => flushed5_eq V c t) cover5

end Cert.KernelIdeal.Region3

end
-- ==== Proof.HostStretches.lean ====
/-
  The stretches of host operations between the kernel program's regions, each read as one step from ANY contents W of
  the device's buffers. The first (three stretches in a row) leaves the column d = max(deg, 1)^(−1/2) of the target
  nodes' degrees; each of the other three gathers the rescaled features' rows by source node and sums them by target
  node, leaving agg; and none of them writes a buffer a later region or stretch reads, which is said buffer by buffer.
-/
import proofs.«157465_j26542897889791_2_alg».proof.Proof.Gen.KernelIdeal.Launch
import proofs.«157465_j26542897889791_2_alg».proof.Proof.KernelDims
import Idealize.ShloMosaic.Lib.StableHlo.Run
import Idealize.ShloMosaic.PureOps.Ideal

set_option maxRecDepth 16384

noncomputable section

namespace Cert.KernelIdeal.HostSide

open Cert.KernelIdeal Cert.KernelIdeal.Gen Cert.PolySpec
open Idealize.ShloMosaic Idealize.ShloMosaic.TcCoe Idealize.SL.Sem Idealize.ShloMosaic.StableHlo

variable (W : Valuation τ sig (Elt Ideal))

/-! ## Before region 0 -/

set_option maxHeartbeats 400000 in
/-- The first stretch leaves deg: for every node, the count of the edges whose target it is (a sum of ones). -/
theorem count_step : StableHlo.after (hostOps0 (F := Ideal)) W (Proc.devRef .tc main_v3)
    = (Host.scatterAdd (F := Ideal) scatter_S100000_S1200000x1_S1200000_n_0_0_1
        (broadcastInDim S100000 ![] Facts₀.bcast_S_S100000 (constant (F := Ideal) S_ .f32 0x00000000#32))
        (broadcastInDim S1200000x1 ![0] Facts₀.bcast_S1200000_S1200000x1_0 (W (Proc.devRef .tc main_arg2)))
        (broadcastInDim S1200000 ![] Facts₀.bcast_S_S1200000 (constant (F := Ideal) S_ .f32 0x3F800000#32)) : S100000.Idx → Elt Ideal .f32) := by
  after_results

set_option maxHeartbeats 400000 in
/-- The first stretch also leaves the constant 1 that the clamp of the degrees takes. -/
theorem count_one : StableHlo.after (hostOps0 (F := Ideal)) W (Proc.devRef .tc main_cst_1)
    = (constant (F := Ideal) S_ .f32 0x3F800000#32 : S_.Idx → Elt Ideal .f32) := by
  after_results

set_option maxHeartbeats 400000 in
/-- The second stretch clamps the degrees from below: max(1, deg), from the constant and the count as it finds them. -/
theorem clip_step : StableHlo.after (hostOps0_1 (F := Ideal)) W (Proc.devRef .tc main_v4)
    = (maximumf (F := Ideal) (s := S100000) (φ := .f32)
        (broadcastInDim S100000 ![] Facts₀.bcast_S_S100000 (id (W (Proc.devRef .tc main_cst_1) : S_.Idx → Elt Ideal .f32)))
        (W (Proc.devRef .tc main_v3)) : S100000.Idx → Elt Ideal .f32) := by
  after_results
  rfl

set_option maxHeartbeats 400000 in
/-- The third stretch raises the clamped degrees to the power −1/2 and makes the result a 100000 × 1 column. -/
theorem power_step : StableHlo.after (hostOps0_2 (F := Ideal)) W (Proc.devRef .tc main_v7)
    = (broadcastInDim S100000x1 ![0] Facts₀.bcast_S100000_S100000x1_0
        (Host.powf (F := Ideal) (s := S100000) (φ := .f32) (W (Proc.devRef .tc main_v4))
          (broadcastInDim S100000 ![] Facts₀.bcast_S_S100000 (constant (F := Ideal) S_ .f32 0xBF000000#32))) : S100000x1.Idx → Elt Ideal .f32) := by
  after_results

set_option maxHeartbeats 400000 in
/-- The three stretches before region 0 leave the column max(deg, 1)^(−1/2), deg the count of edges by target. -/
theorem head_column :
    StableHlo.after (hostOps0_2 (F := Ideal)) (StableHlo.after (hostOps0_1 (F := Ideal)) (StableHlo.after (hostOps0 (F := Ideal)) W))
        (Proc.devRef .tc main_v7)
      = (invSqrtDeg (F := Ideal) hostDims (W (Proc.devRef .tc main_arg2)) : S100000x1.Idx → Elt Ideal .f32) := by
  rw [power_step, clip_step, count_step, count_one]
  rfl

theorem head_keeps_main_arg0 :
    StableHlo.after (hostOps0_2 (F := Ideal)) (StableHlo.after (hostOps0_1 (F := Ideal)) (StableHlo.after (hostOps0 (F := Ideal)) W))
        (Proc.devRef .tc main_arg0) = W (Proc.devRef .tc main_arg0) := by
  after_results
theorem head_keeps_main_arg1 :
    StableHlo.after (hostOps0_2 (F := Ideal)) (StableHlo.after (hostOps0_1 (F := Ideal)) (StableHlo.after (hostOps0 (F := Ideal)) W))
        (Proc.devRef .tc main_arg1) = W (Proc.devRef .tc main_arg1) := by
  after_results
theorem head_keeps_main_arg2 :
    StableHlo.after (hostOps0_2 (F := Ideal)) (StableHlo.after (hostOps0_1 (F := Ideal)) (StableHlo.after (hostOps0 (F := Ideal)) W))
        (Proc.devRef .tc main_arg2) = W (Proc.devRef .tc main_arg2) := by
  after_results

/-! ## Between the regions -/

/-- The stretch before region 1 leaves agg of region 0's rescaled features. -/
theorem agg1 : StableHlo.after (hostOps1 (F := Ideal)) W (Proc.devRef .tc main_v18)
    = (aggregate (F := Ideal) hostDims (W (Proc.devRef .tc main_v8_1)) (W (Proc.devRef .tc main_arg1))
        (W (Proc.devRef .tc main_arg2)) : S100000x64.Idx → Elt Ideal .f32) := by
  after_results
  rfl
theorem hostOps1_keeps_main_arg0 : StableHlo.after (hostOps1 (F := Ideal)) W (Proc.devRef .tc main_arg0) = W (Proc.devRef .tc main_arg0) := by
  after_results
theorem hostOps1_keeps_main_arg1 : StableHlo.after (hostOps1 (F := Ideal)) W (Proc.devRef .tc main_arg1) = W (Proc.devRef .tc main_arg1) := by
  after_results
theorem hostOps1_keeps_main_arg2 : StableHlo.after (hostOps1 (F := Ideal)) W (Proc.devRef .tc main_arg2) = W (Proc.devRef .tc main_arg2) := by
  after_results
theorem hostOps1_keeps_main_v7 : StableHlo.after (hostOps1 (F := Ideal)) W (Proc.devRef .tc main_v7) = W (Proc.devRef .tc main_v7) := by
  after_results
theorem hostOps1_keeps_main_v8_0 : StableHlo.after (hostOps1 (F := Ideal)) W (Proc.devRef .tc main_v8_0) = W (Proc.devRef .tc main_v8_0) := by
  after_results

/-- The stretch before region 2 leaves agg of region 1's rescaled features. -/
theorem agg2 : StableHlo.after (hostOps2 (F := Ideal)) W (Proc.devRef .tc main_v29)
    = (aggregate (F := Ideal) hostDims (W (Proc.devRef .tc main_v19_2)) (W (Proc.devRef .tc main_arg1))
        (W (Proc.devRef .tc main_arg2)) : S100000x64.Idx → Elt Ideal .f32) := by
  after_results
  rfl
theorem hostOps2_keeps_main_arg1 : StableHlo.after (hostOps2 (F := Ideal)) W (Proc.devRef .tc main_arg1) = W (Proc.devRef .tc main_arg1) := by
  after_results
theorem hostOps2_keeps_main_arg2 : StableHlo.after (hostOps2 (F := Ideal)) W (Proc.devRef .tc main_arg2) = W (Proc.devRef .tc main_arg2) := by
  after_results
theorem hostOps2_keeps_main_v7 : StableHlo.after (hostOps2 (F := Ideal)) W (Proc.devRef .tc main_v7) = W (Proc.devRef .tc main_v7) := by
  after_results
theorem hostOps2_keeps_main_v19_0 : StableHlo.after (hostOps2 (F := Ideal)) W (Proc.devRef .tc main_v19_0) = W (Proc.devRef .tc main_v19_0) := by
  after_results
theorem hostOps2_keeps_main_v19_1 : StableHlo.after (hostOps2 (F := Ideal)) W (Proc.devRef .tc main_v19_1) = W (Proc.devRef .tc main_v19_1) := by
  after_results

/-- The stretch before region 3 leaves agg of region 2's rescaled features. -/
theorem agg3 : StableHlo.after (hostOps3 (F := Ideal)) W (Proc.devRef .tc main_v40)
    = (aggregate (F := Ideal) hostDims (W (Proc.devRef .tc main_v30_2)) (W (Proc.devRef .tc main_arg1))
        (W (Proc.devRef .tc main_arg2)) : S100000x64.Idx → Elt Ideal .f32) := by
  after_results
  rfl
theorem hostOps3_keeps_main_v7 : StableHlo.after (hostOps3 (F := Ideal)) W (Proc.devRef .tc main_v7) = W (Proc.devRef .tc main_v7) := by
  after_results
theorem hostOps3_keeps_main_v30_0 : StableHlo.after (hostOps3 (F := Ideal)) W (Proc.devRef .tc main_v30_0) = W (Proc.devRef .tc main_v30_0) := by
  after_results
theorem hostOps3_keeps_main_v30_1 : StableHlo.after (hostOps3 (F := Ideal)) W (Proc.devRef .tc main_v30_1) = W (Proc.devRef .tc main_v30_1) := by
  after_results

end Cert.KernelIdeal.HostSide

end
-- ==== Proof.Chain.lean ====
/-
  The kernel program's buffers at each boundary between its regions and host stretches, read where the next step
  reads them, from the launch memory to the result. With d the column of inverse square-root degrees and agg the sum
  over incoming edges: region 0 leaves h₀ = 1·feat and feat·d; each later region k is entered with fₖ₋₁, hₖ₋₁, d and
  agg(fₖ₋₁·d) and leaves fₖ, hₖ and fₖ·d; the last one's accumulator is the result h₃. The arguments and d are
  carried unchanged through every step (a region reads them through input windows, a host stretch does not write them).
-/
import proofs.«157465_j26542897889791_2_alg».proof.Proof.Gen.KernelIdeal.Frame
import proofs.«157465_j26542897889791_2_alg».proof.Proof.Region0
import proofs.«157465_j26542897889791_2_alg».proof.Proof.Region1
import proofs.«157465_j26542897889791_2_alg».proof.Proof.Region2
import proofs.«157465_j26542897889791_2_alg».proof.Proof.Region3
import proofs.«157465_j26542897889791_2_alg».proof.Proof.HostStretches

set_option maxRecDepth 16384

noncomputable section

namespace Cert.KernelIdeal.Chain

open Cert.KernelIdeal Cert.KernelIdeal.Gen Cert.KernelIdeal.HostSide Cert.PolySpec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Region 0's entry -/

theorem w3_column : W3 m ρ c (Proc.devRef .tc main_v7) = ((invSqrtDeg (F := Ideal) hostDims (m ((c : Thread nD τ).loc main_arg2))) : S100000x1.Idx → Elt Ideal .f32) := head_column (W0 m ρ c)
theorem w3_feat0 : W3 m ρ c (Proc.devRef .tc main_arg0) = m ((c : Thread nD τ).loc main_arg0) := head_keeps_main_arg0 (W0 m ρ c)
theorem w3_src : W3 m ρ c (Proc.devRef .tc main_arg1) = m ((c : Thread nD τ).loc main_arg1) := head_keeps_main_arg1 (W0 m ρ c)
theorem w3_dst : W3 m ρ c (Proc.devRef .tc main_arg2) = m ((c : Thread nD τ).loc main_arg2) := head_keeps_main_arg2 (W0 m ρ c)

/-! ## Region 0's exit -/

theorem w4_h : W4 m ρ c (Proc.devRef .tc main_v8_0) = ((hInit (F := Ideal) hostDims (m ((c : Thread nD τ).loc main_arg0))) : S100000x64.Idx → Elt Ideal .f32) := by
  refine (W4_arr m ρ c 2).trans ((Region0.final2 (V3 m ρ) c).trans ?_)
  show hInit (F := Ideal) hostDims (W3 m ρ c (Proc.devRef .tc main_arg0)) = _
  rw [w3_feat0]
theorem w4_scaled : W4 m ρ c (Proc.devRef .tc main_v8_1) = ((scaled (F := Ideal) hostDims (m ((c : Thread nD τ).loc main_arg0)) (invSqrtDeg (F := Ideal) hostDims (m ((c : Thread nD τ).loc main_arg2)))) : S100000x64.Idx → Elt Ideal .f32) := by
  refine (W4_arr m ρ c 3).trans ((Region0.final3 (V3 m ρ) c).trans ?_)
  show scaled (F := Ideal) hostDims (W3 m ρ c (Proc.devRef .tc main_arg0)) (W3 m ρ c (Proc.devRef .tc main_v7)) = _
  rw [w3_feat0, w3_column]
theorem w4_feat0 : W4 m ρ c (Proc.devRef .tc main_arg0) = m ((c : Thread nD τ).loc main_arg0) :=
  (W4_arr m ρ c 0).trans (((dat0 (V3 m ρ) c).arrAt_in 0 rfl _).trans ((A_eq0 (V3 m ρ) c 0).trans (w3_feat0 m ρ c)))
theorem w4_column : W4 m ρ c (Proc.devRef .tc main_v7) = ((invSqrtDeg (F := Ideal) hostDims (m ((c : Thread nD τ).loc main_arg2))) : S100000x1.Idx → Elt Ideal .f32) :=
  (W4_arr m ρ c 1).trans (((dat0 (V3 m ρ) c).arrAt_in 1 rfl _).trans ((A_eq0 (V3 m ρ) c 1).trans (w3_column m ρ c)))
theorem w4_src : W4 m ρ c (Proc.devRef .tc main_arg1) = m ((c : Thread nD τ).loc main_arg1) :=
  (W4_of_ne m ρ c main_arg1 (by decide)).trans (w3_src m ρ c)
theorem w4_dst : W4 m ρ c (Proc.devRef .tc main_arg2) = m ((c : Thread nD τ).loc main_arg2) :=
  (W4_of_ne m ρ c main_arg2 (by decide)).trans (w3_dst m ρ c)

/-! ## Region 1's entry -/

theorem w5_agg : W5 m ρ c (Proc.devRef .tc main_v18) = ((aggregate (F := Ideal) hostDims (scaled (F := Ideal) hostDims (m ((c : Thread nD τ).loc main_arg0)) (invSqrtDeg (F := Ideal) hostDims (m ((c : Thread nD τ).loc main_arg2)))) (m ((c : Thread nD τ).loc main_arg1)) (m ((c : Thread nD τ).loc main_arg2))) : S100000x64.Idx → Elt Ideal .f32) := by
  refine (agg1 (W4 m ρ c)).trans ?_
  rw [w4_scaled, w4_src, w4_dst]
theorem w5_feat0 : W5 m ρ c (Proc.devRef .tc main_arg0) = m ((c : Thread nD τ).loc main_arg0) :=
  (hostOps1_keeps_main_arg0 (W4 m ρ c)).trans (w4_feat0 m ρ c)
theorem w5_src : W5 m ρ c (Proc.devRef .tc main_arg1) = m ((c : Thread nD τ).loc main_arg1) :=
  (hostOps1_keeps_main_arg1 (W4 m ρ c)).trans (w4_src m ρ c)
theorem w5_dst : W5 m ρ c (Proc.devRef .tc main_arg2) = m ((c : Thread nD τ).loc main_arg2) :=
  (hostOps1_keeps_main_arg2 (W4 m ρ c)).trans (w4_dst m ρ c)
theorem w5_column : W5 m ρ c (Proc.devRef .tc main_v7) = ((invSqrtDeg (F := Ideal) hostDims (m ((c : Thread nD τ).loc main_arg2))) : S100000x1.Idx → Elt Ideal .f32) :=
  (hostOps1_keeps_main_v7 (W4 m ρ c)).trans (w4_column m ρ c)
theorem w5_h : W5 m ρ c (Proc.devRef .tc main_v8_0) = ((hInit (F := Ideal) hostDims (m ((c : Thread nD τ).loc main_arg0))) : S100000x64.Idx → Elt Ideal .f32) :=
  (hostOps1_keeps_main_v8_0 (W4 m ρ c)).trans (w4_h m ρ c)

/-! ## Region 1's exit -/

theorem w6_feat : W6 m ρ c (Proc.devRef .tc main_v19_0) = ((feat1 (F := Ideal) hostDims (m ((c : Thread nD τ).loc main_arg0)) (m ((c : Thread nD τ).loc main_arg1)) (m ((c : Thread nD τ).loc main_arg2))) : S100000x64.Idx → Elt Ideal .f32) := by
  refine (W6_arr m ρ c 4).trans ((Region1.final4 (V5 m ρ) c).trans ?_)
  show featStep (F := Ideal) hostDims (W5 m ρ c (Proc.devRef .tc main_arg0)) (W5 m ρ c (Proc.devRef .tc main_v18)) (W5 m ρ c (Proc.devRef .tc main_v7)) = _
  rw [w5_feat0, w5_agg, w5_column]
  rfl
theorem w6_h : W6 m ρ c (Proc.devRef .tc main_v19_1) = ((h1 (F := Ideal) hostDims (m ((c : Thread nD τ).loc main_arg0)) (m ((c : Thread nD τ).loc main_arg1)) (m ((c : Thread nD τ).loc main_arg2))) : S100000x64.Idx → Elt Ideal .f32) := by
  refine (W6_arr m ρ c 5).trans ((Region1.final5 (V5 m ρ) c).trans ?_)
  show hStep (F := Ideal) hostDims 0xBF4CCCCD#32 (W5 m ρ c (Proc.devRef .tc main_v8_0))
    (featStep (F := Ideal) hostDims (W5 m ρ c (Proc.devRef .tc main_arg0)) (W5 m ρ c (Proc.devRef .tc main_v18)) (W5 m ρ c (Proc.devRef .tc main_v7))) = _
  rw [w5_feat0, w5_agg, w5_column, w5_h]
  rfl
theorem w6_scaled : W6 m ρ c (Proc.devRef .tc main_v19_2) = ((scaled (F := Ideal) hostDims (feat1 (F := Ideal) hostDims (m ((c : Thread nD τ).loc main_arg0)) (m ((c : Thread nD τ).loc main_arg1)) (m ((c : Thread nD τ).loc main_arg2))) (invSqrtDeg (F := Ideal) hostDims (m ((c : Thread nD τ).loc main_arg2)))) : S100000x64.Idx → Elt Ideal .f32) := by
  refine (W6_arr m ρ c 6).trans ((Region1.final6 (V5 m ρ) c).trans ?_)
  show scaled (F := Ideal) hostDims
    (featStep (F := Ideal) hostDims (W5 m ρ c (Proc.devRef .tc main_arg0)) (W5 m ρ c (Proc.devRef .tc main_v18)) (W5 m ρ c (Proc.devRef .tc main_v7)))
    (W5 m ρ c (Proc.devRef .tc main_v7)) = _
  rw [w5_feat0, w5_agg, w5_column]
  rfl
theorem w6_column : W6 m ρ c (Proc.devRef .tc main_v7) = ((invSqrtDeg (F := Ideal) hostDims (m ((c : Thread nD τ).loc main_arg2))) : S100000x1.Idx → Elt Ideal .f32) :=
  (W6_arr m ρ c 2).trans (((dat1 (V5 m ρ) c).arrAt_in 2 rfl _).trans ((A_eq1 (V5 m ρ) c 2).trans (w5_column m ρ c)))
theorem w6_src : W6 m ρ c (Proc.devRef .tc main_arg1) = m ((c : Thread nD τ).loc main_arg1) :=
  (W6_of_ne m ρ c main_arg1 (by decide)).trans (w5_src m ρ c)
theorem w6_dst : W6 m ρ c (Proc.devRef .tc main_arg2) = m ((c : Thread nD τ).loc main_arg2) :=
  (W6_of_ne m ρ c main_arg2 (by decide)).trans (w5_dst m ρ c)

/-! ## Region 2's entry -/

theorem w7_agg : W7 m ρ c (Proc.devRef .tc main_v29) = ((aggregate (F := Ideal) hostDims (scaled (F := Ideal) hostDims (feat1 (F := Ideal) hostDims (m ((c : Thread nD τ).loc main_arg0)) (m ((c : Thread nD τ).loc main_arg1)) (m ((c : Thread nD τ).loc main_arg2))) (invSqrtDeg (F := Ideal) hostDims (m ((c : Thread nD τ).loc main_arg2)))) (m ((c : Thread nD τ).loc main_arg1)) (m ((c : Thread nD τ).loc main_arg2))) : S100000x64.Idx → Elt Ideal .f32) := by
  refine (agg2 (W6 m ρ c)).trans ?_
  rw [w6_scaled, w6_src, w6_dst]
theorem w7_src : W7 m ρ c (Proc.devRef .tc main_arg1) = m ((c : Thread nD τ).loc main_arg1) :=
  (hostOps2_keeps_main_arg1 (W6 m ρ c)).trans (w6_src m ρ c)
theorem w7_dst : W7 m ρ c (Proc.devRef .tc main_arg2) = m ((c : Thread nD τ).loc main_arg2) :=
  (hostOps2_keeps_main_arg2 (W6 m ρ c)).trans (w6_dst m ρ c)
theorem w7_column : W7 m ρ c (Proc.devRef .tc main_v7) = ((invSqrtDeg (F := Ideal) hostDims (m ((c : Thread nD τ).loc main_arg2))) : S100000x1.Idx → Elt Ideal .f32) :=
  (hostOps2_keeps_main_v7 (W6 m ρ c)).trans (w6_column m ρ c)
theorem w7_feat : W7 m ρ c (Proc.devRef .tc main_v19_0) = ((feat1 (F := Ideal) hostDims (m ((c : Thread nD τ).loc main_arg0)) (m ((c : Thread nD τ).loc main_arg1)) (m ((c : Thread nD τ).loc main_arg2))) : S100000x64.Idx → Elt Ideal .f32) :=
  (hostOps2_keeps_main_v19_0 (W6 m ρ c)).trans (w6_feat m ρ c)
theorem w7_h : W7 m ρ c (Proc.devRef .tc main_v19_1) = ((h1 (F := Ideal) hostDims (m ((c : Thread nD τ).loc main_arg0)) (m ((c : Thread nD τ).loc main_arg1)) (m ((c : Thread nD τ).loc main_arg2))) : S100000x64.Idx → Elt Ideal .f32) :=
  (hostOps2_keeps_main_v19_1 (W6 m ρ c)).trans (w6_h m ρ c)

/-! ## Region 2's exit -/

theorem w8_feat : W8 m ρ c (Proc.devRef .tc main_v30_0) = ((feat2 (F := Ideal) hostDims (m ((c : Thread nD τ).loc main_arg0)) (m ((c : Thread nD τ).loc main_arg1)) (m ((c : Thread nD τ).loc main_arg2))) : S100000x64.Idx → Elt Ideal .f32) := by
  refine (W8_arr m ρ c 4).trans ((Region2.final4 (V7 m ρ) c).trans ?_)
  show featStep (F := Ideal) hostDims (W7 m ρ c (Proc.devRef .tc main_v19_0)) (W7 m ρ c (Proc.devRef .tc main_v29)) (W7 m ρ c (Proc.devRef .tc main_v7)) = _
  rw [w7_feat, w7_agg, w7_column]
  rfl
theorem w8_h : W8 m ρ c (Proc.devRef .tc main_v30_1) = ((h2 (F := Ideal) hostDims (m ((c : Thread nD τ).loc main_arg0)) (m ((c : Thread nD τ).loc main_arg1)) (m ((c : Thread nD τ).loc main_arg2))) : S100000x64.Idx → Elt Ideal .f32) := by
  refine (W8_arr m ρ c 5).trans ((Region2.final5 (V7 m ρ) c).trans ?_)
  show hStep (F := Ideal) hostDims 0x3ECCCCCD#32 (W7 m ρ c (Proc.devRef .tc main_v19_1))
    (featStep (F := Ideal) hostDims (W7 m ρ c (Proc.devRef .tc main_v19_0)) (W7 m ρ c (Proc.devRef .tc main_v29)) (W7 m ρ c (Proc.devRef .tc main_v7))) = _
  rw [w7_feat, w7_agg, w7_column, w7_h]
  rfl
theorem w8_scaled : W8 m ρ c (Proc.devRef .tc main_v30_2) = ((scaled (F := Ideal) hostDims (feat2 (F := Ideal) hostDims (m ((c : Thread nD τ).loc main_arg0)) (m ((c : Thread nD τ).loc main_arg1)) (m ((c : Thread nD τ).loc main_arg2))) (invSqrtDeg (F := Ideal) hostDims (m ((c : Thread nD τ).loc main_arg2)))) : S100000x64.Idx → Elt Ideal .f32) := by
  refine (W8_arr m ρ c 6).trans ((Region2.final6 (V7 m ρ) c).trans ?_)
  show scaled (F := Ideal) hostDims
    (featStep (F := Ideal) hostDims (W7 m ρ c (Proc.devRef .tc main_v19_0)) (W7 m ρ c (Proc.devRef .tc main_v29)) (W7 m ρ c (Proc.devRef .tc main_v7)))
    (W7 m ρ c (Proc.devRef .tc main_v7)) = _
  rw [w7_feat, w7_agg, w7_column]
  rfl
theorem w8_column : W8 m ρ c (Proc.devRef .tc main_v7) = ((invSqrtDeg (F := Ideal) hostDims (m ((c : Thread nD τ).loc main_arg2))) : S100000x1.Idx → Elt Ideal .f32) :=
  (W8_arr m ρ c 2).trans (((dat2 (V7 m ρ) c).arrAt_in 2 rfl _).trans ((A_eq2 (V7 m ρ) c 2).trans (w7_column m ρ c)))
theorem w8_src : W8 m ρ c (Proc.devRef .tc main_arg1) = m ((c : Thread nD τ).loc main_arg1) :=
  (W8_of_ne m ρ c main_arg1 (by decide)).trans (w7_src m ρ c)
theorem w8_dst : W8 m ρ c (Proc.devRef .tc main_arg2) = m ((c : Thread nD τ).loc main_arg2) :=
  (W8_of_ne m ρ c main_arg2 (by decide)).trans (w7_dst m ρ c)

/-! ## Region 3's entry -/

theorem w9_agg : W9 m ρ c (Proc.devRef .tc main_v40) = ((aggregate (F := Ideal) hostDims (scaled (F := Ideal) hostDims (feat2 (F := Ideal) hostDims (m ((c : Thread nD τ).loc main_arg0)) (m ((c : Thread nD τ).loc main_arg1)) (m ((c : Thread nD τ).loc main_arg2))) (invSqrtDeg (F := Ideal) hostDims (m ((c : Thread nD τ).loc main_arg2)))) (m ((c : Thread nD τ).loc main_arg1)) (m ((c : Thread nD τ).loc main_arg2))) : S100000x64.Idx → Elt Ideal .f32) := by
  refine (agg3 (W8 m ρ c)).trans ?_
  rw [w8_scaled, w8_src, w8_dst]
theorem w9_column : W9 m ρ c (Proc.devRef .tc main_v7) = ((invSqrtDeg (F := Ideal) hostDims (m ((c : Thread nD τ).loc main_arg2))) : S100000x1.Idx → Elt Ideal .f32) :=
  (hostOps3_keeps_main_v7 (W8 m ρ c)).trans (w8_column m ρ c)
theorem w9_feat : W9 m ρ c (Proc.devRef .tc main_v30_0) = ((feat2 (F := Ideal) hostDims (m ((c : Thread nD τ).loc main_arg0)) (m ((c : Thread nD τ).loc main_arg1)) (m ((c : Thread nD τ).loc main_arg2))) : S100000x64.Idx → Elt Ideal .f32) :=
  (hostOps3_keeps_main_v30_0 (W8 m ρ c)).trans (w8_feat m ρ c)
theorem w9_h : W9 m ρ c (Proc.devRef .tc main_v30_1) = ((h2 (F := Ideal) hostDims (m ((c : Thread nD τ).loc main_arg0)) (m ((c : Thread nD τ).loc main_arg1)) (m ((c : Thread nD τ).loc main_arg2))) : S100000x64.Idx → Elt Ideal .f32) :=
  (hostOps3_keeps_main_v30_1 (W8 m ρ c)).trans (w8_h m ρ c)

/-! ## The result -/

/-- When the program ends, its result array holds h₃ of the arguments as launched. -/
theorem result : W10 m ρ c (Proc.devRef .tc main_v41_1) = ((h3 (F := Ideal) hostDims (m ((c : Thread nD τ).loc main_arg0)) (m ((c : Thread nD τ).loc main_arg1)) (m ((c : Thread nD τ).loc main_arg2))) : S100000x64.Idx → Elt Ideal .f32) := by
  refine (W10_arr m ρ c 5).trans ((Region3.final5 (V9 m ρ) c).trans ?_)
  show hStep (F := Ideal) hostDims 0xBDCCCCCD#32 (W9 m ρ c (Proc.devRef .tc main_v30_1))
    (featStep (F := Ideal) hostDims (W9 m ρ c (Proc.devRef .tc main_v30_0)) (W9 m ρ c (Proc.devRef .tc main_v40)) (W9 m ρ c (Proc.devRef .tc main_v7))) = _
  rw [w9_feat, w9_agg, w9_column, w9_h]
  rfl

end Cert.KernelIdeal.Chain

end
-- ==== Proof.RefTerm.lean ====
/-
  The reference's result is the specification: its host operations, composed, are h₃ of the three arguments, term for
  term (the reference spells every step as the specification does, so nothing is rearranged).
-/
import proofs.«157465_j26542897889791_2_alg».proof.Proof.Gen.ReferenceIdeal.Run
import proofs.«157465_j26542897889791_2_alg».proof.Proof.PolySpec

noncomputable section

namespace Cert.ReferenceIdeal.RefValue

open Cert.ReferenceIdeal Cert.ReferenceIdeal.Gen Cert.ReferenceIdeal.Value Cert.PolySpec
open Idealize.ShloMosaic Idealize.ShloMosaic.TcCoe Idealize.SL.Sem

variable {F : FTy → Type} [FloatOps F]

/-- The reference's records and side conditions for the shared host operations. -/
def hostDims : HostDims where
  bE := Facts₀.bcast_S_S1200000
  bN := Facts₀.bcast_S_S100000
  bE1 := Facts₀.bcast_S1200000_S1200000x1_0
  bN1 := Facts₀.bcast_S100000_S100000x1_0
  bNF := Facts₀.bcast_S_S100000x64
  bN1NF := Facts₀.bcast_S100000x1_S100000x64_0_1
  degDims := scatter_S100000_S1200000x1_S1200000_n_0_0_1
  rowGather := gather_S100000x64_S1200000x1_S1200000x64_1_0_n_n_0_1_164
  rowScatter := scatter_S100000x64_S1200000x1_S1200000x64_1_0_0_1

set_option maxRecDepth 8192 in
/-- The reference run's result term is h₃ of the arguments. -/
theorem result_eq (m : (ℓ : Loc nD τ sig) → Buf (Elt F) ℓ) (c : Dev nD) :
    res_main_v63 m c
      = h3 hostDims (m ((c.tc : Thread nD τ).loc main_arg0)) (m ((c.tc : Thread nD τ).loc main_arg1))
          (m ((c.tc : Thread nD τ).loc main_arg2)) := by
  unfold res_main_v63
  rfl

end Cert.ReferenceIdeal.RefValue

end
-- ==== Proof.lean ====
/-
  The kernel program and its reference compute the same polynomial in the degree-normalised graph Laplacian of the
  features: h₃ = h₂ + θ₃·f₃ with fₖ = fₖ₋₁ − agg(fₖ₋₁·d)·d, hₖ = hₖ₋₁ + θₖ·fₖ, h₀ = 1·feat, d = max(deg, 1)^(−1/2)
  (Proof/PolySpec.lean). The reference applies every step to whole arrays on the host; the kernel program keeps the
  degree count, the lookup by source node and the sum over incoming edges on the host and runs the dense part of each
  step in a kernel tiled over blocks of 4000 rows, passing fₖ·d on to the next step's lookup. Each step is spelt the
  same way on both sides — no sum is reordered and no product redistributed — so the two results are equal for every
  extended-real input, finite or not, and the precondition is not used.

  The kernel side: each region's output arrays are the whole-array step results because the 25 row blocks tile the
  array and a row of the result depends on that row only (Proof/Region0 … Region3, over Proof/LibLaplacianStep); the
  host stretches between them are read as they stand (Proof/HostStretches); the buffers' contents are followed from the
  launch to the result (Proof/Chain) along the program's run (Proof/KernelRun). The reference side: its run's result
  term is the specification (Proof/RefTerm). The two programs' records for the shared host operations are equal.
  The idealization rewrote nothing, so there is nothing to preserve.
-/
import proofs.«157465_j26542897889791_2_alg».proof.Defs
import proofs.«157465_j26542897889791_2_alg».proof.Proof.Gen.Kernel
import proofs.«157465_j26542897889791_2_alg».proof.Proof.Gen.Kernel.Frame
import proofs.«157465_j26542897889791_2_alg».proof.Proof.Gen.KernelIdeal
import proofs.«157465_j26542897889791_2_alg».proof.Proof.Gen.KernelIdeal.Frame
import proofs.«157465_j26542897889791_2_alg».proof.Proof.Gen.ReferenceIdeal
import proofs.«157465_j26542897889791_2_alg».proof.Proof.Gen.ReferenceIdeal.Run
import proofs.«157465_j26542897889791_2_alg».proof.Proof.Gen.Pre_finite_inputs
import proofs.«157465_j26542897889791_2_alg».proof.Proof.KernelRun
import proofs.«157465_j26542897889791_2_alg».proof.Proof.Chain
import proofs.«157465_j26542897889791_2_alg».proof.Proof.RefTerm

noncomputable section

namespace Cert.Proof

open Idealize.ShloMosaic Idealize.ShloMosaic.TcCoe Idealize.SL.Sem Cert.PolySpec

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs take the same records and side conditions for the host operations they share. -/
theorem hostDims_eq : Cert.KernelIdeal.HostSide.hostDims = Cert.ReferenceIdeal.RefValue.hostDims := rfl

/-- Both programs end with h₃ of the arguments. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Chain.result m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2, ← hostDims_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
